-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩
abbrev S2000 : Shape := ⟨1, ![2000]⟩

abbrev nBuf : Space → Nat
  | .hbm => 56
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x256, .f32⟩
  | .hbm, ⟨39, _⟩ => ⟨S50000x256, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S256x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | .local _ .vmem, ⟨18, _⟩ => ⟨S2000x1, .f32⟩
  | .local _ .vmem, ⟨19, _⟩ => ⟨S2000x1, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S128_S1x128 : S128.ShapeCasts S1x128
  shapeCasts_S2000x256_S2000x256 : S2000x256.ShapeCasts S2000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  The program is four segments: a stretch of host operations, the first kernel's region, a second stretch, the second
  kernel's region. The buffer contents at each boundary are a fold from the launch memory, and the last boundary's
  contents hold every buffer the program leaves, the result buffer among them. So every weakly fair execution ends with
  the result buffer at the last boundary's contents of it, and with the arguments as launched. The launch of the
  segments is the one that proves the program's frame; here its final reading also keeps the result buffer.
-/
import proofs.«175573_j29618094473883_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    the arguments as launched. -/
theorem run_out : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  Two rounds of mean aggregation over a graph, each followed by a dense layer, then a row-wise log-softmax,
  written entry by entry over the extended reals.

  A node's row is formed from the sum of its in-neighbours' rows divided by the neighbour count (at least one).
  One computation multiplies the sum by the reciprocal of the count and, in the second round, aggregates the rows
  already multiplied by the second round's weight matrix; the other divides by the count and multiplies by the weights
  after aggregating. The definitions here are the row-level formulas of both, for any number of rows: a block of rows
  and the whole array are read by the same formula.
-/
import Idealize.ShloMosaic.PureOps.Ideal
import Idealize.ShloMosaic.Lib.ValueIdx

noncomputable section

namespace Cert.Sage

open Idealize.ShloMosaic Idealize.ShloMosaic.ValueIdx

/-- An a × b array of extended reals. -/
abbrev Arr (a b : ℕ) : Type := (⟨2, ![a, b]⟩ : Shape).Idx → EReal
/-- A vector of a extended reals. -/
abbrev Vec1 (a : ℕ) : Type := (⟨1, ![a]⟩ : Shape).Idx → EReal

/-- The word of +0.0 read as an extended real. -/
abbrev z32 : EReal := Ideal.ofBits .f32 0x00000000#32
/-- The word of −∞ read as an extended real. -/
abbrev ninf32 : EReal := Ideal.ofBits .f32 0xFF800000#32
/-- The word of 1.0 read as an extended real. -/
abbrev one32 : EReal := Ideal.ofBits .f32 0x3F800000#32

variable {n : ℕ}

/-- First layer, reciprocal form, at row r and column q: the rectified sum of (aggregate row scaled by the row's
    reciprocal count) · Wl, the node's own row · Wr, and the bias. -/
def hiddenK (A x : Arr n 128) (inv : Arr n 1) (Wl Wr : Arr 128 256) (b : Arr 1 256) (r : Fin n) (q : Fin 256) : EReal :=
  max (((∑ k : Fin 128, (A (ix2 r k) * inv (ix2 r (0 : Fin 1))) * Wl (ix2 k q))
        + ∑ k : Fin 128, x (ix2 r k) * Wr (ix2 k q)) + b (ix2 (0 : Fin 1) q)) z32

/-- First layer, quotient form: the aggregate row is divided by the row's count. -/
def hiddenR (A x : Arr n 128) (mc : Vec1 n) (Wl Wr : Arr 128 256) (b : Vec1 256) (r : Fin n) (q : Fin 256) : EReal :=
  max (((∑ k : Fin 128, Ideal.div (A (ix2 r k)) (mc (ix1 r)) * Wl (ix2 k q))
        + ∑ k : Fin 128, x (ix2 r k) * Wr (ix2 k q)) + b (ix1 q)) z32

/-- A row of h times a 256 × 128 matrix, at column q. -/
def proj (h : Arr n 256) (W : Arr 256 128) (r : Fin n) (q : Fin 128) : EReal :=
  ∑ k : Fin 256, h (ix2 r k) * W (ix2 k q)

/-- Second layer's scores, reciprocal form: own row · Wr, plus the aggregate of projected rows scaled by the
    reciprocal count, plus the bias. -/
def logitsK (A2 : Arr n 128) (h : Arr n 256) (inv : Arr n 1) (Wr : Arr 256 128) (b : Arr 1 128) (r : Fin n) (q : Fin 128) : EReal :=
  ((∑ k : Fin 256, h (ix2 r k) * Wr (ix2 k q)) + A2 (ix2 r q) * inv (ix2 r (0 : Fin 1))) + b (ix2 (0 : Fin 1) q)

/-- Second layer's scores, quotient form: (aggregate of rows divided by the count) · Wl, plus own row · Wr, plus
    the bias. -/
def logitsR (A2 : Arr n 256) (h : Arr n 256) (mc : Vec1 n) (Wl Wr : Arr 256 128) (b : Vec1 128) (r : Fin n) (q : Fin 128) : EReal :=
  ((∑ k : Fin 256, Ideal.div (A2 (ix2 r k)) (mc (ix1 r)) * Wl (ix2 k q))
    + ∑ k : Fin 256, h (ix2 r k) * Wr (ix2 k q)) + b (ix1 q)

/-- The largest of 128 scores, folded from −∞. -/
def rowMax (a : Fin 128 → EReal) : EReal := (Finset.univ : Finset (Fin 128)).fold max ninf32 a

/-- Log-softmax of a row of scores, grouped as a − (M + log Σ exp (a − M)). -/
def lsmK (a : Fin 128 → EReal) (q : Fin 128) : EReal :=
  a q - (rowMax a + Ideal.log (∑ j : Fin 128, Ideal.exp (a j - rowMax a)))

/-- Log-softmax of a row of scores, grouped as (a − M) − log (0 + Σ exp (a − M)), the maximum taken once more
    against −∞. -/
def lsmR (a : Fin 128 → EReal) (q : Fin 128) : EReal :=
  (a q - max ninf32 (rowMax a)) - Ideal.log (z32 + ∑ j : Fin 128, Ideal.exp (a j - max ninf32 (rowMax a)))

/-! ## Whole arrays -/

/-- An array from its entries by coordinates. -/
def arr2 {a b : ℕ} (f : Fin a → Fin b → EReal) : Arr a b := fun i => f (i 0) (i 1)

theorem arr2_apply {a b : ℕ} (f : Fin a → Fin b → EReal) (r : Fin a) (q : Fin b) : arr2 f (ix2 r q) = f r q := rfl

/-- The sum of in-neighbour rows: the rows of `f` named by the source numbers `sI`, each added into the row of
    `Z` named by the destination number `dI` (a destination outside the array receives nothing). -/
def nbrSum {N E C : ℕ} (ds : ScatterDims ⟨2, ![N, C]⟩ ⟨2, ![E, 1]⟩ ⟨2, ![E, C]⟩)
    (dg : GatherDims ⟨2, ![N, C]⟩ ⟨2, ![E, 1]⟩ ⟨2, ![E, C]⟩) (Z f : Arr N C) (sI dI : IVec ⟨2, ![E, 1]⟩ 32) : Arr N C :=
  Ideal.hostScatterAdd ds Z dI (Host.gather dg f sI)

section whole
variable {N E : ℕ}
  (ds : ScatterDims ⟨2, ![N, 128]⟩ ⟨2, ![E, 1]⟩ ⟨2, ![E, 128]⟩) (dg : GatherDims ⟨2, ![N, 128]⟩ ⟨2, ![E, 1]⟩ ⟨2, ![E, 128]⟩)
  (ds' : ScatterDims ⟨2, ![N, 256]⟩ ⟨2, ![E, 1]⟩ ⟨2, ![E, 256]⟩) (dg' : GatherDims ⟨2, ![N, 256]⟩ ⟨2, ![E, 1]⟩ ⟨2, ![E, 256]⟩)
  (Z : Arr N 128) (Z' : Arr N 256) (x : Arr N 128) (sI dI : IVec ⟨2, ![E, 1]⟩ 32)
  (W1l W1r : Arr 128 256) (W2l W2r : Arr 256 128)

/-- The hidden rows, reciprocal form. -/
def hidK (inv : Arr N 1) (b1row : Arr 1 256) : Arr N 256 :=
  arr2 (hiddenK (nbrSum ds dg Z x sI dI) x inv W1l W1r b1row)

/-- The hidden rows, quotient form. -/
def hidR (mc : Vec1 N) (b1 : Vec1 256) : Arr N 256 :=
  arr2 (hiddenR (nbrSum ds dg Z x sI dI) x mc W1l W1r b1)

/-- The whole computation, reciprocal form with the second round's weights applied before aggregating. -/
def outK (inv : Arr N 1) (b1row : Arr 1 256) (b2row : Arr 1 128) : Arr N 128 :=
  arr2 fun r q => lsmK (fun j => logitsK
    (nbrSum ds dg Z (arr2 (proj (hidK ds dg Z x sI dI W1l W1r inv b1row) W2l)) sI dI)
    (hidK ds dg Z x sI dI W1l W1r inv b1row) inv W2r b2row r j) q

/-- The whole computation, quotient form with the weights applied after aggregating. -/
def outR (mc : Vec1 N) (b1 : Vec1 256) (b2 : Vec1 128) : Arr N 128 :=
  arr2 fun r q => lsmR (fun j => logitsR
    (nbrSum ds' dg' Z' (hidR ds dg Z x sI dI W1l W1r mc b1) sI dI)
    (hidR ds dg Z x sI dI W1l W1r mc b1) mc W2l W2r b2 r j) q

end whole

end Cert.Sage

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.Payload.lean ====
/-
  The two kernels' arithmetic, read entry by entry.

  Each kernel body computes its output block from its input blocks by matrix products, row-wise scalings, a bias
  row, and (second kernel) a row-wise log-softmax. At the ideal values a change of float format is the identity, a
  matrix product into a zero accumulator is the plain finite sum over the contracted coordinate, a lane sum is the
  sum over the row and a lane maximum the fold of max over the row. Read at row p and column q, the three stored
  values are therefore the row formulas of the specification applied to the input blocks: the hidden row, its
  projection, and the log-softmax of the scores.
-/
import proofs.«175573_j29618094473883_2_alg».proof.Proof.Gen.KernelIdeal.Skeleton
import proofs.«175573_j29618094473883_2_alg».proof.Proof.Spec
import proofs.«175573_j29618094473883_2_alg».proof.Proof.LibPlainDot
import proofs.«175573_j29618094473883_2_alg».proof.Proof.LibColumnCast
import proofs.«175573_j29618094473883_2_alg».proof.Proof.LibColumnBroadcast
import proofs.«175573_j29618094473883_2_alg».proof.Proof.LibRank2
import Idealize.ShloMosaic.Lib.Pipeline.Value
import Idealize.ShloMosaic.Lib.ValueLayout
import Idealize.ShloMosaic.Lib.ValueIdx
import Idealize.ShloMosaic.PureOps.Ideal.Laws

noncomputable section

namespace Cert.Sage.Payload

open Cert.KernelIdeal Cert.KernelIdeal.Gen Idealize.ShloMosaic Idealize.ShloMosaic.ValueIdx Cert.Sage

/-! ## First kernel: the hidden rows -/

section first
variable (v0 : Vec Ideal S2000x128 .f32) (v2 : Vec Ideal S2000x1 .f32) (v7 : Vec Ideal S2000x128 .f32)
  (v9 v11 : Vec Ideal S128x256 .f32) (v16 : Vec Ideal S1x256 .f32) (v24 : Vec Ideal S256x128 .f32)

/-- The column of reciprocal counts, repeated along each row, reads the row's one entry. -/
theorem scale_apply (p : Fin 2000) (k : Fin 128) :
    (broadcastTo S2000x128 (shapeCast S2000x1 v2 shapeCasts_S2000x1_S2000x1) broadcasts_S2000x1_S2000x128 : FVec Ideal S2000x128 .f32) (ix2 p k)
      = v2 (ix2 p (0 : Fin 1)) := by
  rw [shapeCast_self]
  exact Cert.LibColumnBroadcast.broadcastTo_a1_ab_apply v2 broadcasts_S2000x1_S2000x128 p k

/-- The bias row, repeated down the rows, reads its entry of the column. -/
theorem bias256_apply (p : Fin 2000) (q : Fin 256) :
    (broadcastTo S2000x256 (shapeCast S1x256 v16 shapeCasts_S1x256_S1x256) broadcasts_S1x256_S2000x256 : FVec Ideal S2000x256 .f32) (ix2 p q)
      = v16 (ix2 (0 : Fin 1) q) := by
  rw [shapeCast_self]
  exact broadcastTo_1b_ab_apply v16 broadcasts_S1x256_S2000x256 p q

/-- The aggregate block scaled row by row, times the left weights: a sum over the 128 input channels. -/
theorem aggDot_apply (p : Fin 2000) (q : Fin 256) :
    FloatOps.matmul dot_S2000x128_S128x256_S2000x256_1_0_0_1_n_n none
        (truncf .bf16 (mulf (shapeCast S2000x128 v0 shapeCasts_S2000x128_S2000x128)
          (broadcastTo S2000x128 (shapeCast S2000x1 v2 shapeCasts_S2000x1_S2000x1) broadcasts_S2000x1_S2000x128)) bitsLt_bf16_f32 : FVec Ideal S2000x128 .bf16)
        (truncf .bf16 v9 bitsLt_bf16_f32 : FVec Ideal S128x256 .bf16) (constant S2000x256 .f32 0x00000000#32) (ix2 p q)
      = ∑ k : Fin 128, (v0 (ix2 p k) * v2 (ix2 p (0 : Fin 1))) * v9 (ix2 k q) :=
  (PlainDot.matmul_zero_apply (M := 2000) (K := 128) (N := 256) none _ _ (ix2 p q)).trans
    (Finset.sum_congr rfl fun k _ => by
      show (shapeCast S2000x128 v0 shapeCasts_S2000x128_S2000x128 (ix2 p k)
          * (broadcastTo S2000x128 (shapeCast S2000x1 v2 shapeCasts_S2000x1_S2000x1) broadcasts_S2000x1_S2000x128 : FVec Ideal S2000x128 .f32) (ix2 p k))
          * v9 (ix2 k q) = _
      rw [shapeCast_self, scale_apply v2 p k])

/-- The node block times the right weights. -/
theorem ownDot_apply (p : Fin 2000) (q : Fin 256) :
    FloatOps.matmul dot_S2000x128_S128x256_S2000x256_1_0_0_1_n_n none
        (truncf .bf16 v7 bitsLt_bf16_f32 : FVec Ideal S2000x128 .bf16)
        (truncf .bf16 v11 bitsLt_bf16_f32 : FVec Ideal S128x256 .bf16) (constant S2000x256 .f32 0x00000000#32) (ix2 p q)
      = ∑ k : Fin 128, v7 (ix2 p k) * v11 (ix2 k q) :=
  PlainDot.matmul_zero_apply (M := 2000) (K := 128) (N := 256) none _ _ (ix2 p q)

/-- THE FIRST STORE at (p, q): the hidden row of the specification, reciprocal form, of the input blocks. -/
theorem pay1_apply (p : Fin 2000) (q : Fin 256) :
    k0_pay1 (F := Ideal) v0 v2 v7 v9 v11 v16 (ix2 p q) = hiddenK v0 v7 v2 v9 v11 v16 p q := by
  unfold k0_pay1 hiddenK
  exact congrArg₂ max (congrArg₂ (· + ·) (congrArg₂ (· + ·) (aggDot_apply v0 v2 v9 p q) (ownDot_apply v7 v11 p q))
    (bias256_apply v16 p q)) rfl

/-- THE SECOND STORE at (p, q): the hidden row times the second round's left weights. -/
theorem pay2_apply (p : Fin 2000) (q : Fin 128) :
    k0_pay2 (F := Ideal) v0 v2 v7 v9 v11 v16 v24 (ix2 p q)
      = proj (arr2 (hiddenK v0 v7 v2 v9 v11 v16)) v24 p q := by
  unfold k0_pay2 proj
  refine (PlainDot.matmul_zero_apply (M := 2000) (K := 256) (N := 128) none _ _ (ix2 p q)).trans
    (Finset.sum_congr rfl fun k _ => ?_)
  show k0_pay1 (F := Ideal) v0 v2 v7 v9 v11 v16 (ix2 p k) * v24 (ix2 k q) = _
  rw [pay1_apply v0 v2 v7 v9 v11 v16 p k]
  rfl

end first

/-! ## Second kernel: scores and their log-softmax -/

section second
variable (a : FVec Ideal S2000x128 .f32)

/-- Each row's maximum, kept as a column. -/
def maxCol : FVec Ideal S2000x1 .f32 :=
  shapeCast S2000x1 (multiReduction .maximumf [1] S2000 a 0xFF800000#32 reduces_S2000x128_S2000 (.inl rfl) rfl) shapeCasts_S2000_S2000x1

theorem maxCol_apply (p : Fin 2000) : maxCol a (ix2 p (0 : Fin 1)) = rowMax fun j => a (ix2 p j) :=
  (Cert.LibColumnCast.shapeCast_a_a1_apply _ shapeCasts_S2000_S2000x1 p 0).trans
    (Cert.LibRank2.max_last a 0xFF800000#32 reduces_S2000x128_S2000 (.inl rfl) rfl p)

/-- The block with each row's maximum subtracted. -/
def shifted : FVec Ideal S2000x128 .f32 := subf a (broadcastTo S2000x128 (maxCol a) broadcasts_S2000x1_S2000x128)

theorem shifted_apply (p : Fin 2000) (j : Fin 128) :
    shifted a (ix2 p j) = a (ix2 p j) - rowMax fun j' => a (ix2 p j') := by
  show a (ix2 p j) - broadcastTo S2000x128 (maxCol a) broadcasts_S2000x1_S2000x128 (ix2 p j) = _
  rw [Cert.LibColumnBroadcast.broadcastTo_a1_ab_apply (maxCol a) broadcasts_S2000x1_S2000x128 p j, maxCol_apply]

/-- Each row's sum of exponentials of the shifted scores, kept as a column. -/
def sumCol : FVec Ideal S2000x1 .f32 :=
  shapeCast S2000x1 (multiReduction .add [1] S2000 (exp (shifted a)) 0x00000000#32 reduces_S2000x128_S2000 (.inl rfl) rfl) shapeCasts_S2000_S2000x1

theorem sumCol_apply (p : Fin 2000) :
    sumCol a (ix2 p (0 : Fin 1)) = ∑ j : Fin 128, Ideal.exp (a (ix2 p j) - rowMax fun j' => a (ix2 p j')) :=
  (Cert.LibColumnCast.shapeCast_a_a1_apply _ shapeCasts_S2000_S2000x1 p 0).trans
    ((Cert.LibRank2.sum_last (exp (shifted a)) 0x00000000#32 reduces_S2000x128_S2000 (.inl rfl) rfl p).trans
      (Finset.sum_congr rfl fun j _ => by
        show Ideal.exp (shifted a (ix2 p j)) = _
        rw [shifted_apply]))

/-- The scores minus (row maximum plus the logarithm of the row's sum of exponentials). -/
def lsmTail : FVec Ideal S2000x128 .f32 :=
  subf a (broadcastTo S2000x128 (addf (maxCol a) (log (sumCol a))) broadcasts_S2000x1_S2000x128)

theorem lsmTail_apply (p : Fin 2000) (q : Fin 128) : lsmTail a (ix2 p q) = lsmK (fun j => a (ix2 p j)) q := by
  show a (ix2 p q) - broadcastTo S2000x128 (addf (maxCol a) (log (sumCol a))) broadcasts_S2000x1_S2000x128 (ix2 p q) = _
  rw [Cert.LibColumnBroadcast.broadcastTo_a1_ab_apply _ broadcasts_S2000x1_S2000x128 p q]
  show a (ix2 p q) - (maxCol a (ix2 p (0 : Fin 1)) + Ideal.log (sumCol a (ix2 p (0 : Fin 1)))) = _
  rw [maxCol_apply, sumCol_apply]
  rfl

end second

section scores
variable (v0 : Vec Ideal S2000x128 .f32) (v2 : Vec Ideal S2000x1 .f32) (v6 : Vec Ideal S2000x256 .f32)
  (v9 : Vec Ideal S256x128 .f32) (v13 : Vec Ideal S1x128 .f32)

/-- The block of scores: own rows times the right weights, plus the scaled aggregate, plus the bias row. -/
def scores : FVec Ideal S2000x128 .f32 :=
  addf (addf (matmul dot_S2000x256_S256x128_S2000x128_1_0_0_1_n_n none
      (truncf .bf16 (shapeCast S2000x256 v6 shapeCasts_S2000x256_S2000x256) bitsLt_bf16_f32)
      (truncf .bf16 v9 bitsLt_bf16_f32) (constant S2000x128 .f32 0x00000000#32))
    (mulf (shapeCast S2000x128 v0 shapeCasts_S2000x128_S2000x128)
      (broadcastTo S2000x128 (shapeCast S2000x1 v2 shapeCasts_S2000x1_S2000x1) broadcasts_S2000x1_S2000x128)))
    (broadcastTo S2000x128 (shapeCast S1x128 v13 shapeCasts_S1x128_S1x128) broadcasts_S1x128_S2000x128)

theorem scores_apply (p : Fin 2000) (j : Fin 128) : scores v0 v2 v6 v9 v13 (ix2 p j) = logitsK v0 v6 v2 v9 v13 p j := by
  have hd : FloatOps.matmul dot_S2000x256_S256x128_S2000x128_1_0_0_1_n_n none
      (truncf .bf16 (shapeCast S2000x256 v6 shapeCasts_S2000x256_S2000x256) bitsLt_bf16_f32 : FVec Ideal S2000x256 .bf16)
      (truncf .bf16 v9 bitsLt_bf16_f32 : FVec Ideal S256x128 .bf16) (constant S2000x128 .f32 0x00000000#32) (ix2 p j)
      = ∑ k : Fin 256, v6 (ix2 p k) * v9 (ix2 k j) :=
    (PlainDot.matmul_zero_apply (M := 2000) (K := 256) (N := 128) none _ _ (ix2 p j)).trans
      (Finset.sum_congr rfl fun k _ => by
        show shapeCast S2000x256 v6 shapeCasts_S2000x256_S2000x256 (ix2 p k) * v9 (ix2 k j) = _
        rw [shapeCast_self])
  have hm : (mulf (shapeCast S2000x128 v0 shapeCasts_S2000x128_S2000x128)
      (broadcastTo S2000x128 (shapeCast S2000x1 v2 shapeCasts_S2000x1_S2000x1) broadcasts_S2000x1_S2000x128) : FVec Ideal S2000x128 .f32) (ix2 p j)
      = v0 (ix2 p j) * v2 (ix2 p (0 : Fin 1)) := by
    show shapeCast S2000x128 v0 shapeCasts_S2000x128_S2000x128 (ix2 p j)
      * (broadcastTo S2000x128 (shapeCast S2000x1 v2 shapeCasts_S2000x1_S2000x1) broadcasts_S2000x1_S2000x128 : FVec Ideal S2000x128 .f32) (ix2 p j) = _
    rw [shapeCast_self, scale_apply v2 p j]
  have hb : (broadcastTo S2000x128 (shapeCast S1x128 v13 shapeCasts_S1x128_S1x128) broadcasts_S1x128_S2000x128 : FVec Ideal S2000x128 .f32) (ix2 p j)
      = v13 (ix2 (0 : Fin 1) j) := by
    rw [shapeCast_self]
    exact broadcastTo_1b_ab_apply v13 broadcasts_S1x128_S2000x128 p j
  unfold scores logitsK
  exact congrArg₂ (· + ·) (congrArg₂ (· + ·) hd hm) hb

/-- THE SECOND KERNEL'S STORE at (p, q): the log-softmax, in the kernel's grouping, of row p's scores. -/
theorem pay3_apply (p : Fin 2000) (q : Fin 128) :
    k1_pay1 (F := Ideal) v0 v2 v6 v9 v13 (ix2 p q) = lsmK (fun j => logitsK v0 v6 v2 v9 v13 p j) q := by
  have h : k1_pay1 (F := Ideal) v0 v2 v6 v9 v13 = lsmTail (scores v0 v2 v6 v9 v13) := rfl
  rw [h, lsmTail_apply]
  exact congrArg (fun f => lsmK f q) (funext fun j => scores_apply v0 v2 v6 v9 v13 p j)

end scores

end Cert.Sage.Payload

end
-- ==== Proof.Arrays0.lean ====
/-
  What the first kernel leaves in its two output arrays, as whole arrays.

  The grid has 25 points; point t handles rows 2000·t … 2000·t + 1999 of every row-indexed array and sees each
  weight array and the bias row whole. A stored entry (p, q) of point t's block is therefore the row formula of
  the specification applied to row 2000·t + p of the arrays the region finds on entry, and the 25 blocks tile the
  50000 rows: the array of hidden rows and the array of their projections hold, everywhere, the row formulas of the
  entry contents.
-/
import proofs.«175573_j29618094473883_2_alg».proof.Proof.Gen.KernelIdeal.Frame
import proofs.«175573_j29618094473883_2_alg».proof.Proof.Payload
import Idealize.ShloMosaic.Lib.Pipeline.Value

set_option maxRecDepth 16384

noncomputable section

namespace Cert.Sage.Arrays0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block number is the point's, its column block 0; the weight
    and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row 2000·t + p of the 50000. -/
def rowOf (t : Fin cfg0.N) (p : Fin 2000) : Fin 50000 :=
  ⟨t.val * 2000 + p.val, by have h : t.val < 25 := lt_of_lt_of_eq t.isLt N_0; have := p.isLt; omega⟩

/-! ## The input blocks read at coordinates -/

theorem blk0 (c : Dev nD) (t : Fin cfg0.N) (p : Fin 2000) (k : Fin 128) :
    iblk0 V c 0 t (ix2 p k) = V c main_v22 (ix2 (rowOf t p) k) := by
  obtain ⟨e0, e1, -⟩ := idx_facts t
  show V c main_v22 (((cfg0.win 0).blk t).view.emb (ix2 p k)) = V c main_v22 (ix2 (rowOf t p) k)
  refine congrArg (V c main_v22) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk1 (c : Dev nD) (t : Fin cfg0.N) (p : Fin 2000) (k : Fin 128) :
    iblk0 V c 1 t (ix2 p k) = V c main_arg0 (ix2 (rowOf t p) k) := by
  obtain ⟨-, -, e0, e1, -⟩ := idx_facts t
  show V c main_arg0 (((cfg0.win 1).blk t).view.emb (ix2 p k)) = V c main_arg0 (ix2 (rowOf t p) k)
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem blk2 (c : Dev nD) (t : Fin cfg0.N) (p : Fin 2000) :
    iblk0 V c 2 t (ix2 p (0 : Fin 1)) = V c main_v12 (ix2 (rowOf t p) (0 : Fin 1)) := by
  obtain ⟨-, -, -, -, e0, e1, -⟩ := idx_facts t
  show V c main_v12 (((cfg0.win 2).blk t).view.emb (ix2 p (0 : Fin 1))) = V c main_v12 (ix2 (rowOf t p) (0 : Fin 1))
  refine congrArg (V c main_v12) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

theorem blk3 (c : Dev nD) (t : Fin cfg0.N) (k : Fin 128) (q : Fin 256) :
    iblk0 V c 3 t (ix2 k q) = V c main_arg2 (ix2 k q) := by
  obtain ⟨-, -, -, -, -, -, e0, e1, -⟩ := idx_facts t
  show V c main_arg2 (((cfg0.win 3).blk t).view.emb (ix2 k q)) = V c main_arg2 (ix2 k q)
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

theorem blk4 (c : Dev nD) (t : Fin cfg0.N) (k : Fin 128) (q : Fin 256) :
    iblk0 V c 4 t (ix2 k q) = V c main_arg3 (ix2 k q) := by
  obtain ⟨-, -, -, -, -, -, -, -, e0, e1, -⟩ := idx_facts t
  show V c main_arg3 (((cfg0.win 4).blk t).view.emb (ix2 k q)) = V c main_arg3 (ix2 k q)
  refine congrArg (V c main_arg3) (funext fun a => Fin.ext ?_)
  match a with
  | ⟨0, _⟩ => show win0_4.index t (0 : Fin 2) * 128 + 1 * k.val = k.val; omega
  | ⟨1, _⟩ => show win0_4.index t (1 : Fin 2) * 256 + 1 * q.val = q.val; omega

theorem blk5 (c : Dev nD) (t : Fin cfg0.N) (q : Fin 256) :
    iblk0 V c 5 t (ix2 (0 : Fin 1) q) = V c main_v23 (ix2 (0 : Fin 1) q) := by
  obtain ⟨-, -, -, -, -, -, -, -, -, -, e0, e1, -⟩ := idx_facts t
  show V c main_v23 (((cfg0.win 5).blk t).view.emb (ix2 (0 : Fin 1) q)) = V c main_v23 (ix2 (0 : Fin 1) q)
  refine congrArg (V c main_v23) (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

theorem blk6 (c : Dev nD) (t : Fin cfg0.N) (k : Fin 256) (q : Fin 128) :
    iblk0 V c 6 t (ix2 k q) = V c main_arg5 (ix2 k q) := by
  obtain ⟨-, -, -, -, -, -, -, -, -, -, -, -, e0, e1, -⟩ := idx_facts t
  show V c main_arg5 (((cfg0.win 6).blk t).view.emb (ix2 k q)) = V c main_arg5 (ix2 k q)
  refine congrArg (V c main_arg5) (funext fun a => Fin.ext ?_)
  match a with
  | ⟨0, _⟩ => show win0_6.index t (0 : Fin 2) * 256 + 1 * k.val = k.val; omega
  | ⟨1, _⟩ => show win0_6.index t (1 : Fin 2) * 128 + 1 * q.val = q.val; omega

/-! ## The hidden row of a block is the hidden row of the arrays -/

/-- The hidden rows of the entry contents. -/
def hid (c : Dev nD) : Arr 50000 256 :=
  arr2 (hiddenK (V c main_v22) (V c main_arg0) (V c main_v12) (V c main_arg2) (V c main_arg3) (V c main_v23))

theorem hidden_blk (c : Dev nD) (t : Fin cfg0.N) (p : Fin 2000) (q : Fin 256) :
    hiddenK (iblk0 V c 0 t) (iblk0 V c 1 t) (iblk0 V c 2 t) (iblk0 V c 3 t) (iblk0 V c 4 t) (iblk0 V c 5 t) p q
      = hiddenK (V c main_v22) (V c main_arg0) (V c main_v12) (V c main_arg2) (V c main_arg3) (V c main_v23) (rowOf t p) q := by
  unfold hiddenK
  rw [blk2 V c t p, blk5 V c t q]
  refine congrArg₂ max (congrArg₂ (· + ·) (congrArg₂ (· + ·)
    (Finset.sum_congr rfl fun k _ => by rw [blk0 V c t p k, blk3 V c t k q])
    (Finset.sum_congr rfl fun k _ => by rw [blk1 V c t p k, blk4 V c t k q])) rfl) rfl

/-! ## Output window 7: the hidden rows -/

theorem flushed7 (c : Dev nD) (t : Fin cfg0.N) :
    (dat0 V c).flushed 7 t = ((cfg0.win 7).blk t).view.read (Elt Ideal) (hid V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S2000x1) hz,
    View.ld_unit_zero (S := S128x256) hz, View.ld_unit_zero (S := S1x256) hz]
  obtain ⟨-, -, -, -, -, -, -, -, -, -, -, -, -, -, e0, e1, -⟩ := idx_facts t
  funext (y : S2000x256.Idx)
  obtain ⟨p, q, rfl⟩ : ∃ (p : Fin 2000) (q : Fin 256), y = ix2 p q := ⟨y 0, y 1, eq_ix2 y⟩
  show k0_pay1 (F := Ideal) (iblk0 V c 0 t) (iblk0 V c 2 t) (iblk0 V c 1 t) (iblk0 V c 3 t) (iblk0 V c 4 t) (iblk0 V c 5 t) (ix2 p q)
    = hid V c (((cfg0.win 7).blk t).view.emb (ix2 p q))
  have hemb : ((cfg0.win 7).blk t).view.emb (ix2 p q) = ix2 (rowOf t p) q := funext fun a => Fin.ext (by
    match a with
    | ⟨0, _⟩ => show win0_7.index t (0 : Fin 2) * 2000 + 1 * p.val = t.val * 2000 + p.val; omega
    | ⟨1, _⟩ => show win0_7.index t (1 : Fin 2) * 256 + 1 * q.val = q.val; omega)
  rw [hemb]
  exact (Payload.pay1_apply (iblk0 V c 0 t) (iblk0 V c 2 t) (iblk0 V c 1 t) (iblk0 V c 3 t) (iblk0 V c 4 t) (iblk0 V c 5 t) p q).trans
    (hidden_blk V c t p q)

theorem mem_blk7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v24_0).slice (win0_7.rect t)).set ↔ _
  rw [View.set_slice_whole, Rect.mem_set_unit]
  exact Iff.rfl

/-- Row i lies in the block of point i / 2000. -/
theorem cover7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have ht : (i 0).val / 2000 < cfg0.N := lt_of_lt_of_eq (by omega) N_0.symm
  obtain ⟨-, -, -, -, -, -, -, -, -, -, -, -, -, -, e0, e1, -⟩ := idx_facts ⟨(i 0).val / 2000, ht⟩
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 256 ≤ (i 1).val
      ∧ (i 1).val < win0_7.index ⟨(i 0).val / 2000, ht⟩ (1 : Fin 2) * 256 + 256
    rw [e1]; omega

/-- THE ARRAY OF HIDDEN ROWS after the region. -/
theorem final7 (c : Dev nD) : (dat0 V c).arrAt 7 cfg0.N = hid V c :=
  (dat0 V c).arrAt_eq_of_cover 7 (hid V c) (fun t _ => flushed7 V c t) cover7

/-! ## Output window 8: the projected rows -/

/-- The hidden rows times the second round's left weights. -/
def prj (c : Dev nD) : Arr 50000 128 := arr2 (proj (hid V c) (V c main_arg5))

theorem flushed8 (c : Dev nD) (t : Fin cfg0.N) :
    (dat0 V c).flushed 8 t = ((cfg0.win 8).blk t).view.read (Elt Ideal) (prj V c) := by
  show (cfg0.win 8).cut (grid0.coords t) ((dat0 V c).after 8 t) = _
  rw [after0_8]
  unfold out0_8
  rw [View.canon_unit_zero hz]
  simp only [View.ld_unit_zero (S := S2000x128) hz, View.ld_unit_zero (S := S2000x1) hz,
    View.ld_unit_zero (S := S128x256) hz, View.ld_unit_zero (S := S1x256) hz, View.ld_unit_zero (S := S256x128) hz]
  obtain ⟨-, -, -, -, -, -, -, -, -, -, -, -, -, -, -, -, e0, e1⟩ := idx_facts t
  funext (y : S2000x128.Idx)
  obtain ⟨p, q, rfl⟩ : ∃ (p : Fin 2000) (q : Fin 128), y = ix2 p q := ⟨y 0, y 1, eq_ix2 y⟩
  show k0_pay2 (F := Ideal) (iblk0 V c 0 t) (iblk0 V c 2 t) (iblk0 V c 1 t) (iblk0 V c 3 t) (iblk0 V c 4 t) (iblk0 V c 5 t) (iblk0 V c 6 t) (ix2 p q)
    = prj V c (((cfg0.win 8).blk t).view.emb (ix2 p q))
  have hemb : ((cfg0.win 8).blk t).view.emb (ix2 p q) = ix2 (rowOf t p) q := funext fun a => Fin.ext (by
    match a with
    | ⟨0, _⟩ => show win0_8.index t (0 : Fin 2) * 2000 + 1 * p.val = t.val * 2000 + p.val; omega
    | ⟨1, _⟩ => show win0_8.index t (1 : Fin 2) * 128 + 1 * q.val = q.val; omega)
  rw [hemb]
  refine (Payload.pay2_apply (iblk0 V c 0 t) (iblk0 V c 2 t) (iblk0 V c 1 t) (iblk0 V c 3 t) (iblk0 V c 4 t) (iblk0 V c 5 t) (iblk0 V c 6 t) p q).trans ?_
  show proj (arr2 (hiddenK (iblk0 V c 0 t) (iblk0 V c 1 t) (iblk0 V c 2 t) (iblk0 V c 3 t) (iblk0 V c 4 t) (iblk0 V c 5 t))) (iblk0 V c 6 t) p q
    = proj (hid V c) (V c main_arg5) (rowOf t p) q
  unfold proj
  refine Finset.sum_congr rfl fun k _ => ?_
  rw [blk6 V c t k q]
  exact congrArg (· * V c main_arg5 (ix2 k q)) (hidden_blk V c t p k)

theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v24_1).slice (win0_8.rect t)).set ↔ _
  rw [View.set_slice_whole, Rect.mem_set_unit]
  exact Iff.rfl

theorem cover8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have ht : (i 0).val / 2000 < cfg0.N := lt_of_lt_of_eq (by omega) N_0.symm
  obtain ⟨-, -, -, -, -, -, -, -, -, -, -, -, -, -, -, -, e0, e1⟩ := idx_facts ⟨(i 0).val / 2000, ht⟩
  refine ⟨⟨(i 0).val / 2000, ht⟩, flush0_8 _, ?_⟩
  rw [mem_blk8]
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, ht⟩ (1 : Fin 2) * 128 ≤ (i 1).val
      ∧ (i 1).val < win0_8.index ⟨(i 0).val / 2000, ht⟩ (1 : Fin 2) * 128 + 128
    rw [e1]; omega

/-- THE ARRAY OF PROJECTED ROWS after the region. -/
theorem final8 (c : Dev nD) : (dat0 V c).arrAt 8 cfg0.N = prj V c :=
  (dat0 V c).arrAt_eq_of_cover 8 (prj V c) (fun t _ => flushed8 V c t) cover8

end Cert.Sage.Arrays0

end
-- ==== Proof.Arrays1.lean ====
/-
  What the second kernel leaves in its output array, as a whole array.

  As for the first kernel the grid has 25 points and point t handles rows 2000·t … 2000·t + 1999; the weight array
  and the bias row are seen whole. A stored entry (p, q) of point t's block is the log-softmax, at column q, of the
  scores of row 2000·t + p of the arrays the region finds on entry, and the 25 blocks tile the 50000 rows.
-/
import proofs.«175573_j29618094473883_2_alg».proof.Proof.Gen.KernelIdeal.Frame
import proofs.«175573_j29618094473883_2_alg».proof.Proof.Payload
import Idealize.ShloMosaic.Lib.Pipeline.Value

set_option maxRecDepth 16384

noncomputable section

namespace Cert.Sage.Arrays1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block number is the point's, its column block 0; the weight
    and bias windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row 2000·t + p of the 50000. -/
def rowOf (t : Fin cfg1.N) (p : Fin 2000) : Fin 50000 :=
  ⟨t.val * 2000 + p.val, by have h : t.val < 25 := lt_of_lt_of_eq t.isLt N_1; have := p.isLt; omega⟩

/-! ## The input blocks read at coordinates -/

theorem blk0 (c : Dev nD) (t : Fin cfg1.N) (p : Fin 2000) (k : Fin 128) :
    iblk1 V c 0 t (ix2 p k) = V c main_v34 (ix2 (rowOf t p) k) := by
  obtain ⟨e0, e1, -⟩ := idx_facts t
  show V c main_v34 (((cfg1.win 0).blk t).view.emb (ix2 p k)) = V c main_v34 (ix2 (rowOf t p) k)
  refine congrArg (V c main_v34) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem blk1 (c : Dev nD) (t : Fin cfg1.N) (p : Fin 2000) (k : Fin 256) :
    iblk1 V c 1 t (ix2 p k) = V c main_v24_0 (ix2 (rowOf t p) k) := by
  obtain ⟨-, -, e0, e1, -⟩ := idx_facts t
  show V c main_v24_0 (((cfg1.win 1).blk t).view.emb (ix2 p k)) = V c main_v24_0 (ix2 (rowOf t p) k)
  refine congrArg (V c main_v24_0) (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

theorem blk2 (c : Dev nD) (t : Fin cfg1.N) (p : Fin 2000) :
    iblk1 V c 2 t (ix2 p (0 : Fin 1)) = V c main_v12 (ix2 (rowOf t p) (0 : Fin 1)) := by
  obtain ⟨-, -, -, -, e0, e1, -⟩ := idx_facts t
  show V c main_v12 (((cfg1.win 2).blk t).view.emb (ix2 p (0 : Fin 1))) = V c main_v12 (ix2 (rowOf t p) (0 : Fin 1))
  refine congrArg (V c main_v12) (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * 0 = 0; omega

theorem blk3 (c : Dev nD) (t : Fin cfg1.N) (k : Fin 256) (q : Fin 128) :
    iblk1 V c 3 t (ix2 k q) = V c main_arg6 (ix2 k q) := by
  obtain ⟨-, -, -, -, -, -, e0, e1, -⟩ := idx_facts t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

theorem blk4 (c : Dev nD) (t : Fin cfg1.N) (q : Fin 128) :
    iblk1 V c 4 t (ix2 (0 : Fin 1) q) = V c main_v35 (ix2 (0 : Fin 1) q) := by
  obtain ⟨-, -, -, -, -, -, -, -, e0, e1, -⟩ := idx_facts t
  show V c main_v35 (((cfg1.win 4).blk t).view.emb (ix2 (0 : Fin 1) q)) = V c main_v35 (ix2 (0 : Fin 1) q)
  refine congrArg (V c main_v35) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## The scores of a block's row are the scores of the arrays' row -/

theorem logits_blk (c : Dev nD) (t : Fin cfg1.N) (p : Fin 2000) (j : Fin 128) :
    logitsK (iblk1 V c 0 t) (iblk1 V c 1 t) (iblk1 V c 2 t) (iblk1 V c 3 t) (iblk1 V c 4 t) p j
      = logitsK (V c main_v34) (V c main_v24_0) (V c main_v12) (V c main_arg6) (V c main_v35) (rowOf t p) j := by
  unfold logitsK
  rw [blk0 V c t p j, blk2 V c t p, blk4 V c t j]
  refine congrArg₂ (· + ·) (congrArg₂ (· + ·)
    (Finset.sum_congr rfl fun k _ => by rw [blk1 V c t p k, blk3 V c t k j]) rfl) rfl

/-- The log-softmax of the scores of the entry contents. -/
def res (c : Dev nD) : Arr 50000 128 :=
  arr2 fun r q => lsmK (fun j => logitsK (V c main_v34) (V c main_v24_0) (V c main_v12) (V c main_arg6) (V c main_v35) r j) q

/-! ## Output window 5 -/

theorem flushed5 (c : Dev nD) (t : Fin cfg1.N) :
    (dat1 V c).flushed 5 t = ((cfg1.win 5).blk t).view.read (Elt Ideal) (res V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz,
    View.ld_unit_zero (S := S2000x256) hz, View.ld_unit_zero (S := S256x128) hz, View.ld_unit_zero (S := S1x128) hz]
  obtain ⟨-, -, -, -, -, -, -, -, -, -, e0, e1⟩ := idx_facts t
  funext (y : S2000x128.Idx)
  obtain ⟨p, q, rfl⟩ : ∃ (p : Fin 2000) (q : Fin 128), y = ix2 p q := ⟨y 0, y 1, eq_ix2 y⟩
  show k1_pay1 (F := Ideal) (iblk1 V c 0 t) (iblk1 V c 2 t) (iblk1 V c 1 t) (iblk1 V c 3 t) (iblk1 V c 4 t) (ix2 p q)
    = res V c (((cfg1.win 5).blk t).view.emb (ix2 p q))
  have hemb : ((cfg1.win 5).blk t).view.emb (ix2 p q) = ix2 (rowOf t p) q := funext fun a => Fin.ext (by
    match a with
    | ⟨0, _⟩ => show win1_5.index t (0 : Fin 2) * 2000 + 1 * p.val = t.val * 2000 + p.val; omega
    | ⟨1, _⟩ => show win1_5.index t (1 : Fin 2) * 128 + 1 * q.val = q.val; omega)
  rw [hemb]
  refine (Payload.pay3_apply (iblk1 V c 0 t) (iblk1 V c 2 t) (iblk1 V c 1 t) (iblk1 V c 3 t) (iblk1 V c 4 t) p q).trans ?_
  exact congrArg (fun f => lsmK f q) (funext fun j => logits_blk V c t p j)

theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v36).slice (win1_5.rect t)).set ↔ _
  rw [View.set_slice_whole, Rect.mem_set_unit]
  exact Iff.rfl

/-- Row i lies in the block of point i / 2000. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := lt_of_lt_of_eq (by omega) N_1.symm
  obtain ⟨-, -, -, -, -, -, -, -, -, -, e0, e1⟩ := idx_facts ⟨(i 0).val / 2000, ht⟩
  refine ⟨⟨(i 0).val / 2000, ht⟩, flush1_5 _, ?_⟩
  rw [mem_blk5]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- THE RESULT ARRAY after the region. -/
theorem final5 (c : Dev nD) : (dat1 V c).arrAt 5 cfg1.N = res V c :=
  (dat1 V c).arrAt_eq_of_cover 5 (res V c) (fun t _ => flushed5 V c t) cover5

end Cert.Sage.Arrays1

end
-- ==== Proof.HostRead.lean ====
/-
  The idealized kernel's result buffer as one function of the arguments' launch contents.

  The program's host operations compute, from the edge array, the source row numbers (negative numbers wrapped once),
  the destination row numbers, each row's neighbour count floored at one and its reciprocal as a column; they sum the
  in-neighbour rows of the node array, and between the two kernels those of the projected rows. The first kernel
  leaves the hidden rows and their projections, the second the log-softmax of the scores. Reading each stretch of host
  operations at the buffers the kernels consume, and each kernel's output array by the whole-array statements, the
  result buffer at the last boundary is the specification's reciprocal-form computation of the launch contents.
-/
import proofs.«175573_j29618094473883_2_alg».proof.Proof.Gen.KernelIdeal.Frame
import proofs.«175573_j29618094473883_2_alg».proof.Proof.Arrays0
import proofs.«175573_j29618094473883_2_alg».proof.Proof.Arrays1
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo
open Cert.Sage

/-! ## The host side's values, as functions of the edge array -/

/-- Row 0 of the edge array: the source numbers. -/
def srcRow (x1 : IVec S2x800000 32) : IVec S800000 32 :=
  shapeCast _ (extractStridedSlice S1x800000 ![0, 0] x1 slices_S2x800000_S1x800000_0_0) shapeCasts_S1x800000_S800000
/-- Row 1 of the edge array: the destination numbers. -/
def dstRow (x1 : IVec S2x800000 32) : IVec S800000 32 :=
  shapeCast _ (extractStridedSlice S1x800000 ![1, 0] x1 slices_S2x800000_S1x800000_1_0) shapeCasts_S1x800000_S800000
/-- The destination numbers as a column of scatter indices. -/
def dstIdx (x1 : IVec S2x800000 32) : IVec S800000x1 32 :=
  broadcastInDim S800000x1 ![0] bcast_S800000_S800000x1_0 (dstRow x1)
/-- The source numbers, a negative one wrapped by the row count, as a column of gather indices. -/
def srcIdx (x1 : IVec S2x800000 32) : IVec S800000x1 32 :=
  broadcastInDim S800000x1 ![0] bcast_S800000_S800000x1_0
    (select (cmpi .slt (srcRow x1) (broadcastInDim S800000 ![] bcast_S_S800000 (constantI S_ 32 0#32)))
      (addi (srcRow x1) (broadcastInDim S800000 ![] bcast_S_S800000 (constantI S_ 32 50000#32))) (srcRow x1))
/-- Each row's neighbour count, floored at one. -/
def cnt1 (x1 : IVec S2x800000 32) : FVec Ideal S50000 .f32 :=
  maximumf (Host.scatterAdd scatter_S50000_S800000x1_S800000_n_0_0_1
      (broadcastInDim S50000 ![] bcast_S_S50000 (constant S_ .f32 0x00000000#32)) (dstIdx x1)
      (broadcastInDim S800000 ![] bcast_S_S800000 (constant S_ .f32 0x3F800000#32)))
    (broadcastInDim S50000 ![] bcast_S_S50000 (constant S_ .f32 0x3F800000#32))
/-- Its reciprocal, as a column. -/
def invCol (x1 : IVec S2x800000 32) : FVec Ideal S50000x1 .f32 :=
  shapeCast S50000x1 (Host.divf (broadcastInDim S50000 ![] bcast_S_S50000 (constant S_ .f32 0x3F800000#32)) (cnt1 x1))
    shapeCasts_S50000_S50000x1
/-- The all-zero array the sums start from. -/
def zeros : FVec Ideal S50000x128 .f32 :=
  broadcastInDim S50000x128 ![] bcast_S_S50000x128 (constant S_ .f32 0x00000000#32)

/-! ## The first stretch of host operations, from any contents -/

section stretch0
variable (W : Valuation τ sig (Elt Ideal))
set_option maxHeartbeats 2000000

theorem s0_v22 : after hostOps0 W (Proc.devRef .tc main_v22)
    = Host.scatterAdd scatter_S50000x128_S800000x1_S800000x128_1_0_0_1 zeros (dstIdx (W (Proc.devRef .tc main_arg1)))
        (Host.gather gather_S50000x128_S800000x1_S800000x128_1_0_n_n_0_1_1128 (W (Proc.devRef .tc main_arg0))
          (srcIdx (W (Proc.devRef .tc main_arg1)))) := by
  dsimp only [hostOps0]; after_results_simp; rfl
theorem s0_v12 : after hostOps0 W (Proc.devRef .tc main_v12) = invCol (W (Proc.devRef .tc main_arg1)) := by
  dsimp only [hostOps0]; after_results_simp; rfl
theorem s0_v23 : after hostOps0 W (Proc.devRef .tc main_v23)
    = shapeCast S1x256 (W (Proc.devRef .tc main_arg4)) shapeCasts_S256_S1x256 := by
  dsimp only [hostOps0]; after_results_simp; rfl
theorem s0_v1 : after hostOps0 W (Proc.devRef .tc main_v1) = srcRow (W (Proc.devRef .tc main_arg1)) := by
  dsimp only [hostOps0]; after_results_simp; rfl
theorem s0_v3 : after hostOps0 W (Proc.devRef .tc main_v3) = dstRow (W (Proc.devRef .tc main_arg1)) := by
  dsimp only [hostOps0]; after_results_simp; rfl
theorem s0_arg0 : after hostOps0 W (Proc.devRef .tc main_arg0) = W (Proc.devRef .tc main_arg0) := by
  dsimp only [hostOps0]; after_results_simp
theorem s0_arg2 : after hostOps0 W (Proc.devRef .tc main_arg2) = W (Proc.devRef .tc main_arg2) := by
  dsimp only [hostOps0]; after_results_simp
theorem s0_arg3 : after hostOps0 W (Proc.devRef .tc main_arg3) = W (Proc.devRef .tc main_arg3) := by
  dsimp only [hostOps0]; after_results_simp
theorem s0_arg5 : after hostOps0 W (Proc.devRef .tc main_arg5) = W (Proc.devRef .tc main_arg5) := by
  dsimp only [hostOps0]; after_results_simp
theorem s0_arg6 : after hostOps0 W (Proc.devRef .tc main_arg6) = W (Proc.devRef .tc main_arg6) := by
  dsimp only [hostOps0]; after_results_simp
theorem s0_arg7 : after hostOps0 W (Proc.devRef .tc main_arg7) = W (Proc.devRef .tc main_arg7) := by
  dsimp only [hostOps0]; after_results_simp

end stretch0

/-! ## The second stretch, from any contents -/

section stretch1
variable (W : Valuation τ sig (Elt Ideal))
set_option maxHeartbeats 2000000

theorem s1_v34 (x1 : IVec S2x800000 32) (h1 : W (Proc.devRef .tc main_v1) = srcRow x1) (h3 : W (Proc.devRef .tc main_v3) = dstRow x1) :
    after hostOps1 W (Proc.devRef .tc main_v34)
      = Host.scatterAdd scatter_S50000x128_S800000x1_S800000x128_1_0_0_1 zeros (dstIdx x1)
          (Host.gather gather_S50000x128_S800000x1_S800000x128_1_0_n_n_0_1_1128 (W (Proc.devRef .tc main_v24_1)) (srcIdx x1)) := by
  dsimp only [hostOps1]; after_results_simp; rw [h1, h3]; rfl
theorem s1_v35 : after hostOps1 W (Proc.devRef .tc main_v35)
    = shapeCast S1x128 (W (Proc.devRef .tc main_arg7)) shapeCasts_S128_S1x128 := by
  dsimp only [hostOps1]; after_results_simp; rfl
theorem s1_v24_0 : after hostOps1 W (Proc.devRef .tc main_v24_0) = W (Proc.devRef .tc main_v24_0) := by
  dsimp only [hostOps1]; after_results_simp
theorem s1_v12 : after hostOps1 W (Proc.devRef .tc main_v12) = W (Proc.devRef .tc main_v12) := by
  dsimp only [hostOps1]; after_results_simp
theorem s1_arg6 : after hostOps1 W (Proc.devRef .tc main_arg6) = W (Proc.devRef .tc main_arg6) := by
  dsimp only [hostOps1]; after_results_simp

end stretch1

/-! ## The boundaries' contents at the buffers the kernels read -/

section run
variable (m : (ℓ : Loc nD τ sig) → Buf (Elt Ideal) ℓ) (ρ : Dev nD → PrngReg) (c : Dev nD)

/-- The sum of in-neighbour rows of `f`, with the program's own index arrays and dimension numbers. -/
abbrev nbr (f : Arr 50000 128) : Arr 50000 128 :=
  nbrSum scatter_S50000x128_S800000x1_S800000x128_1_0_0_1 gather_S50000x128_S800000x1_S800000x128_1_0_n_n_0_1_1128 zeros f (srcIdx (m ((c : Thread nD τ).loc main_arg1))) (dstIdx (m ((c : Thread nD τ).loc main_arg1)))

theorem V1_v22 : V1 m ρ c main_v22 = nbr m c (m ((c : Thread nD τ).loc main_arg0)) := by
  show after hostOps0 (W0 m ρ c) (Proc.devRef .tc main_v22) = _
  rw [s0_v22]; rfl
theorem V1_v12 : V1 m ρ c main_v12 = invCol (m ((c : Thread nD τ).loc main_arg1)) := by
  show after hostOps0 (W0 m ρ c) (Proc.devRef .tc main_v12) = _
  rw [s0_v12]
theorem V1_v23 : V1 m ρ c main_v23 = shapeCast S1x256 (m ((c : Thread nD τ).loc main_arg4)) shapeCasts_S256_S1x256 := by
  show after hostOps0 (W0 m ρ c) (Proc.devRef .tc main_v23) = _
  rw [s0_v23]
theorem V1_arg0 : V1 m ρ c main_arg0 = (m ((c : Thread nD τ).loc main_arg0)) := by
  show after hostOps0 (W0 m ρ c) (Proc.devRef .tc main_arg0) = _
  rw [s0_arg0]
theorem V1_arg2 : V1 m ρ c main_arg2 = (m ((c : Thread nD τ).loc main_arg2)) := by
  show after hostOps0 (W0 m ρ c) (Proc.devRef .tc main_arg2) = _
  rw [s0_arg2]
theorem V1_arg3 : V1 m ρ c main_arg3 = (m ((c : Thread nD τ).loc main_arg3)) := by
  show after hostOps0 (W0 m ρ c) (Proc.devRef .tc main_arg3) = _
  rw [s0_arg3]
theorem V1_arg5 : V1 m ρ c main_arg5 = (m ((c : Thread nD τ).loc main_arg5)) := by
  show after hostOps0 (W0 m ρ c) (Proc.devRef .tc main_arg5) = _
  rw [s0_arg5]

/-- The hidden rows the first kernel leaves, of the launch contents. -/
abbrev hiddenRows : Arr 50000 256 :=
  hidK scatter_S50000x128_S800000x1_S800000x128_1_0_0_1 gather_S50000x128_S800000x1_S800000x128_1_0_n_n_0_1_1128 zeros (m ((c : Thread nD τ).loc main_arg0)) (srcIdx (m ((c : Thread nD τ).loc main_arg1))) (dstIdx (m ((c : Thread nD τ).loc main_arg1))) (m ((c : Thread nD τ).loc main_arg2)) (m ((c : Thread nD τ).loc main_arg3)) (invCol (m ((c : Thread nD τ).loc main_arg1)))
    (shapeCast S1x256 (m ((c : Thread nD τ).loc main_arg4)) shapeCasts_S256_S1x256)

theorem hid_eq : Arrays0.hid (V1 m ρ) c = hiddenRows m c := by
  unfold Arrays0.hid
  rw [V1_v22, V1_arg0, V1_v12, V1_arg2, V1_arg3, V1_v23]
  rfl

theorem prj_eq : Arrays0.prj (V1 m ρ) c = arr2 (proj (hiddenRows m c) (m ((c : Thread nD τ).loc main_arg5))) := by
  unfold Arrays0.prj
  rw [hid_eq, V1_arg5]

theorem W2_v24_0 : W2 m ρ c (Proc.devRef .tc main_v24_0) = hiddenRows m c :=
  ((W2_arr m ρ c 7).trans (Arrays0.final7 (V1 m ρ) c)).trans (hid_eq m ρ c)
theorem W2_v24_1 : W2 m ρ c (Proc.devRef .tc main_v24_1) = arr2 (proj (hiddenRows m c) (m ((c : Thread nD τ).loc main_arg5))) :=
  ((W2_arr m ρ c 8).trans (Arrays0.final8 (V1 m ρ) c)).trans (prj_eq m ρ c)
theorem W2_v12 : W2 m ρ c (Proc.devRef .tc main_v12) = invCol (m ((c : Thread nD τ).loc main_arg1)) :=
  ((W2_arr m ρ c 2).trans (((dat0 (V1 m ρ) c).arrAt_in 2 rfl _).trans (A_eq0 (V1 m ρ) c 2))).trans (V1_v12 m ρ c)
theorem W2_v1 : W2 m ρ c (Proc.devRef .tc main_v1) = srcRow (m ((c : Thread nD τ).loc main_arg1)) :=
  (W2_of_ne m ρ c main_v1 (by decide)).trans ((s0_v1 (W0 m ρ c)).trans rfl)
theorem W2_v3 : W2 m ρ c (Proc.devRef .tc main_v3) = dstRow (m ((c : Thread nD τ).loc main_arg1)) :=
  (W2_of_ne m ρ c main_v3 (by decide)).trans ((s0_v3 (W0 m ρ c)).trans rfl)
theorem W2_arg6 : W2 m ρ c (Proc.devRef .tc main_arg6) = (m ((c : Thread nD τ).loc main_arg6)) :=
  (W2_of_ne m ρ c main_arg6 (by decide)).trans ((s0_arg6 (W0 m ρ c)).trans rfl)
theorem W2_arg7 : W2 m ρ c (Proc.devRef .tc main_arg7) = (m ((c : Thread nD τ).loc main_arg7)) :=
  (W2_of_ne m ρ c main_arg7 (by decide)).trans ((s0_arg7 (W0 m ρ c)).trans rfl)

theorem V3_v34 : V3 m ρ c main_v34 = nbr m c (arr2 (proj (hiddenRows m c) (m ((c : Thread nD τ).loc main_arg5)))) := by
  show after hostOps1 (W2 m ρ c) (Proc.devRef .tc main_v34) = _
  rw [s1_v34 (W2 m ρ c) (m ((c : Thread nD τ).loc main_arg1)) (W2_v1 m ρ c) (W2_v3 m ρ c), W2_v24_1]; rfl
theorem V3_v24_0 : V3 m ρ c main_v24_0 = hiddenRows m c := by
  show after hostOps1 (W2 m ρ c) (Proc.devRef .tc main_v24_0) = _
  rw [s1_v24_0, W2_v24_0]
theorem V3_v12 : V3 m ρ c main_v12 = invCol (m ((c : Thread nD τ).loc main_arg1)) := by
  show after hostOps1 (W2 m ρ c) (Proc.devRef .tc main_v12) = _
  rw [s1_v12, W2_v12]
theorem V3_arg6 : V3 m ρ c main_arg6 = (m ((c : Thread nD τ).loc main_arg6)) := by
  show after hostOps1 (W2 m ρ c) (Proc.devRef .tc main_arg6) = _
  rw [s1_arg6, W2_arg6]
theorem V3_v35 : V3 m ρ c main_v35 = shapeCast S1x128 (m ((c : Thread nD τ).loc main_arg7)) shapeCasts_S128_S1x128 := by
  show after hostOps1 (W2 m ρ c) (Proc.devRef .tc main_v35) = _
  rw [s1_v35, W2_arg7]

/-- THE RESULT BUFFER at the last boundary: the reciprocal-form computation of the launch contents. -/
theorem result_eq : W4 m ρ c (Proc.devRef .tc main_v36)
    = outK scatter_S50000x128_S800000x1_S800000x128_1_0_0_1 gather_S50000x128_S800000x1_S800000x128_1_0_n_n_0_1_1128 zeros (m ((c : Thread nD τ).loc main_arg0)) (srcIdx (m ((c : Thread nD τ).loc main_arg1))) (dstIdx (m ((c : Thread nD τ).loc main_arg1))) (m ((c : Thread nD τ).loc main_arg2)) (m ((c : Thread nD τ).loc main_arg3)) (m ((c : Thread nD τ).loc main_arg5)) (m ((c : Thread nD τ).loc main_arg6))
        (invCol (m ((c : Thread nD τ).loc main_arg1))) (shapeCast S1x256 (m ((c : Thread nD τ).loc main_arg4)) shapeCasts_S256_S1x256) (shapeCast S1x128 (m ((c : Thread nD τ).loc main_arg7)) shapeCasts_S128_S1x128) := by
  refine ((W4_arr m ρ c 5).trans (Arrays1.final5 (V3 m ρ) c)).trans ?_
  unfold Arrays1.res
  rw [V3_v34, V3_v24_0, V3_v12, V3_arg6, V3_v35]
  rfl

end run

end Cert.KernelIdeal.HostValue

end
-- ==== Proof.LibERealFinite.lean ====
/-
  General facts about sums and minima of extended reals that are real numbers.
-/
import Mathlib.Data.EReal.Inv
import Mathlib.Algebra.BigOperators.Group.Finset.Basic
import Mathlib.Data.Finset.Fold

namespace LibERealFinite

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- The coercion of the reals into the extended reals commutes with binary minima. -/
theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

/-- The coercion of the reals into the extended reals commutes with binary maxima. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of extended reals each of which is a real number is a real number. -/
theorem exists_sum_eq_coe {ι : Type*} (s : Finset ι) (F : ι → EReal) (h : ∀ i ∈ s, ∃ r : ℝ, F i = (r : EReal)) :
    ∃ r : ℝ, ∑ i ∈ s, F i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- A map that preserves order preserves binary minima. -/
theorem map_min_of_monotone {g : EReal → EReal} (hg : Monotone g) (a b : EReal) : g (min a b) = min (g a) (g b) := by
  rcases le_total a b with h | h
  · rw [min_eq_left h, min_eq_left (hg h)]
  · rw [min_eq_right h, min_eq_right (hg h)]

/-- A monotone map that fixes `⊤` commutes with the minimum (folded from `⊤`) of a finite family. -/
theorem map_fold_min {ι : Type*} (s : Finset ι) {g : EReal → EReal} (hg : Monotone g) (htop : g ⊤ = ⊤)
    (f : ι → EReal) : g (s.fold min ⊤ f) = s.fold min ⊤ (fun i => g (f i)) := by
  have := Finset.fold_hom (op := (min : EReal → EReal → EReal)) (op' := min) (s := s) (b := ⊤) (f := f)
    (m := g) (map_min_of_monotone hg)
  rw [htop] at this
  exact this.symm

/-- The minimum, folded from `⊤`, of a NONEMPTY finite family of real numbers is a real number. -/
theorem exists_fold_min_eq_coe {ι : Type*} (s : Finset ι) (hs : s.Nonempty) (f : ι → ℝ) :
    ∃ r : ℝ, s.fold min ⊤ (fun i => (f i : EReal)) = (r : EReal) := by
  classical
  induction hs using Finset.Nonempty.cons_induction with
  | singleton a => exact ⟨f a, by simp⟩
  | cons a s ha hs ih =>
    obtain ⟨r, hr⟩ := ih
    refine ⟨min (f a) r, ?_⟩
    rw [Finset.fold_cons, hr, coe_min]

end LibERealFinite
-- ==== Proof.LibRowScale.lean ====
/-
  Scaling the rows of a matrix product by a positive real, over the extended reals.

  For a row `a` and a column `w` of extended reals and a real `m > 0`,
      (∑ k, a k * w k) * (1 / m)  =  ∑ k, (a k / m) * w k ,
  with no finiteness assumption on `a` or `w`: multiplication by a nonnegative real distributes over
  addition of extended reals (also over `⊤ + ⊥`), and the product of extended reals is commutative and
  associative. The divisor of a mean aggregation is `max c 1` for a count `c` — a finite sum of ones,
  so a real, and `max c 1 ≥ 1` —; `sum_one` and `max_one_real` say so.

  Counting by scatter-add: the host's accumulating scatter holds, at each entry, the operand's entry plus the sum of
  the updates that land on it. When the operand's entry is zero and every update is one, the entry is therefore a
  natural number read as a real (`scatterAdd_ones_nat`, `host_scatterAdd_ones_nat`): the number of updates that
  land there. Which updates those are plays no role.
-/
import Idealize.ShloMosaic.PureOps.Ideal
import Idealize.ShloMosaic.PureOps.Ideal.Laws

noncomputable section

open Idealize.ShloMosaic

namespace Cert.RowScale

/-- A nonnegative real factor moves into a finite sum of extended reals. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The row-scale law: a matrix product's entry times the reciprocal of a positive real is the entry of the
    product whose left rows were divided by that real first. -/
theorem dot_mul_inv {ι : Type*} [Fintype ι] (a w : ι → EReal) (m : ℝ) (hm : 0 < m) :
    (∑ k, a k * w k) * Ideal.div 1 (m : EReal) = ∑ k, Ideal.div (a k) (m : EReal) * w k := by
  have hne : m ≠ 0 := ne_of_gt hm
  rw [Ideal.div_coe hne, one_mul, sum_mul_real _ _ _ (by positivity)]
  refine Finset.sum_congr rfl fun k _ => ?_
  rw [Ideal.div_coe hne, mul_right_comm]

/-- A finite sum of ones, as an extended real, is the number of its terms. -/
theorem sum_one {ι : Type*} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The larger of a nonnegative count and one is a positive real. -/
theorem max_one_real (n : ℕ) : ∃ m : ℝ, 0 < m ∧ max (0 + ((n : ℝ) : EReal)) 1 = (m : EReal) :=
  ⟨max (n : ℝ) 1, lt_of_lt_of_le one_pos (le_max_right _ _), by
    rw [zero_add, ← EReal.coe_one]
    exact (EReal.coe_strictMono.monotone.map_max).symm⟩

/-- The f32 word of `1.0` denotes the real one. -/
theorem ofBits_one_f32 : Ideal.ofBits .f32 0x3F800000#32 = 1 := by
  simp [Ideal.ofBits, Ideal.ieee]
  rw [← EReal.coe_mul]
  norm_num

/-- A scatter-add of ones into an entry that holds zero is zero plus a natural number, for any shapes, scatter
    dimension numbers and index array. -/
theorem scatterAdd_ones_nat {s si su : Shape} (d : ScatterDims s si su) {w : Nat} (x : s.Idx → EReal) (idx : IVec si w)
    (upd : su.Idx → EReal) (i : s.Idx) (hx : x i = 0) (hu : ∀ j, upd j = 1) :
    ∃ n : ℕ, Ideal.hostScatterAdd d x idx upd i = 0 + ((n : ℝ) : EReal) := by
  unfold Ideal.hostScatterAdd
  rw [hx, Finset.sum_congr rfl (fun j _ => hu j), sum_one]
  exact ⟨_, rfl⟩

/-- The same for the host's scatter-add as a program states it, read at the ideal values. -/
theorem host_scatterAdd_ones_nat {s si su : Shape} (d : ScatterDims s si su) {w : Nat} (x : FVec Ideal s .f32) (idx : IVec si w)
    (upd : FVec Ideal su .f32) (i : s.Idx) (hx : x i = 0) (hu : ∀ j, upd j = 1) :
    ∃ n : ℕ, Host.scatterAdd d x idx upd i = 0 + ((n : ℝ) : EReal) :=
  scatterAdd_ones_nat d x idx upd i hx hu

end Cert.RowScale

end
-- ==== Proof.Algebra.lean ====
/-
  The algebra that joins the reciprocal form and the quotient form of two rounds of mean aggregation followed by a
  log-softmax, entry by entry over the extended reals.

  Three facts. (1) For a count c ≥ 1 and every extended real a, a · (1 / c) = a / c: the count is not zero, and
  1 · c⁻¹ = c⁻¹. No finiteness is needed, so the two forms of the first layer agree entry by entry. (2) For
  real-valued rows h and weights W, and a count c ≥ 1 (whose reciprocal is a real number, zero when c = ⊤),
      (Σ_e Σ_k h(e,k) · W(k)) · c⁻¹ = Σ_k ((Σ_e h(e,k)) · c⁻¹) · W(k),
  the same finite double sum of real numbers read in two orders: aggregating rows already multiplied by the
  weights and then scaling is dividing the aggregate rows and then multiplying by the weights. (3) For a row of
  real scores the maximum M folded from −∞ is a real number, max (−∞) M = M, 0 + S = S, and
  a − (M + L) = (a − M) − L for every extended real L, so the two groupings of the log-softmax agree.

  Sums, products and maxima of real numbers are real, and so is a real number divided by a count c ≥ 1; hence the
  hidden rows and the scores of the quotient form are real when the inputs are.
-/
import proofs.«175573_j29618094473883_2_alg».proof.Proof.Spec
import proofs.«175573_j29618094473883_2_alg».proof.Proof.LibERealFinite
import proofs.«175573_j29618094473883_2_alg».proof.Proof.LibRowScale

noncomputable section

namespace Cert.Sage

open Idealize.ShloMosaic Idealize.ShloMosaic.ValueIdx

/-! ## The three constants -/

/-- The word of +0.0 is the extended real 0. -/
theorem z32_eq : z32 = 0 := Ideal.ofBits_zero_f32

/-- The word of 1.0 is the extended real 1. -/
theorem one32_eq : one32 = 1 := Cert.RowScale.ofBits_one_f32

/-- The word of −∞ is the least extended real. -/
theorem ninf32_eq : ninf32 = ⊥ := by simp [Ideal.ofBits, Ideal.ieee]

/-! ## Extended reals that are real numbers -/

/-- An extended real that is a real number. -/
abbrev IsReal (x : EReal) : Prop := ∃ v : ℝ, x = (v : EReal)

theorem isReal_zero : IsReal 0 := ⟨0, rfl⟩

theorem IsReal.add {a b : EReal} (ha : IsReal a) (hb : IsReal b) : IsReal (a + b) := by
  obtain ⟨u, rfl⟩ := ha
  obtain ⟨v, rfl⟩ := hb
  exact ⟨u + v, (EReal.coe_add u v).symm⟩

theorem IsReal.mul {a b : EReal} (ha : IsReal a) (hb : IsReal b) : IsReal (a * b) := by
  obtain ⟨u, rfl⟩ := ha
  obtain ⟨v, rfl⟩ := hb
  exact ⟨u * v, (EReal.coe_mul u v).symm⟩

theorem IsReal.max {a b : EReal} (ha : IsReal a) (hb : IsReal b) : IsReal (max a b) := by
  obtain ⟨u, rfl⟩ := ha
  obtain ⟨v, rfl⟩ := hb
  exact ⟨Max.max u v, (LibERealFinite.coe_max u v).symm⟩

theorem isReal_sum {ι : Type*} (s : Finset ι) (F : ι → EReal) (h : ∀ i ∈ s, IsReal (F i)) : IsReal (∑ i ∈ s, F i) :=
  LibERealFinite.exists_sum_eq_coe s F h

theorem isReal_ite {p : Prop} [Decidable p] {a b : EReal} (ha : IsReal a) (hb : IsReal b) :
    IsReal (if p then a else b) := by
  split
  · exact ha
  · exact hb

/-! ## Dividing by a count that is at least one -/

/-- A count c ≥ 1 is not zero. -/
theorem ne_zero_of_one_le {c : EReal} (hc : 1 ≤ c) : c ≠ 0 := (lt_of_lt_of_le zero_lt_one hc).ne'

/-- Dividing by a count c ≥ 1 is multiplying by a real number (its reciprocal; zero when c = ⊤). -/
theorem div_eq_mul_real {c : EReal} (hc : 1 ≤ c) : ∃ t : ℝ, ∀ a : EReal, Ideal.div a c = a * (t : EReal) := by
  have hc0 : c ≠ 0 := ne_zero_of_one_le hc
  induction c using EReal.rec with
  | bot => exact absurd (le_bot_iff.mp hc) (EReal.coe_ne_bot 1)
  | top => exact ⟨0, fun a => by rw [Ideal.div, if_neg hc0, EReal.inv_top, EReal.coe_zero]⟩
  | coe m => exact ⟨m⁻¹, fun a => by rw [Ideal.div, if_neg hc0, EReal.coe_inv]⟩

/-- Fact (1): multiplying by the reciprocal of a count c ≥ 1 is dividing by it. -/
theorem mul_div_one32 {c : EReal} (hc : 1 ≤ c) (a : EReal) : a * Ideal.div one32 c = Ideal.div a c := by
  have hc0 : c ≠ 0 := ne_zero_of_one_le hc
  rw [one32_eq, Ideal.div, Ideal.div, if_neg hc0, if_neg hc0, one_mul]

/-- A real number divided by a count c ≥ 1 is a real number. -/
theorem isReal_div {a c : EReal} (ha : IsReal a) (hc : 1 ≤ c) : IsReal (Ideal.div a c) := by
  obtain ⟨t, ht⟩ := div_eq_mul_real hc
  rw [ht]
  exact ha.mul ⟨t, rfl⟩

/-! ## The first layer -/

/-- The two forms of the first layer agree at every entry. -/
theorem hiddenK_eq_hiddenR {n : ℕ} (A x : Arr n 128) (inv : Arr n 1) (mc : Vec1 n) (Wl Wr : Arr 128 256)
    (brow : Arr 1 256) (b : Vec1 256) (r : Fin n) (q : Fin 256)
    (hmc : 1 ≤ mc (ix1 r)) (hinv : inv (ix2 r (0 : Fin 1)) = Ideal.div one32 (mc (ix1 r)))
    (hb : brow (ix2 (0 : Fin 1) q) = b (ix1 q)) :
    hiddenK A x inv Wl Wr brow r q = hiddenR A x mc Wl Wr b r q := by
  unfold hiddenK hiddenR
  rw [hinv, hb]
  simp only [mul_div_one32 hmc]

/-- The quotient form of the first layer is real-valued on real inputs. -/
theorem hiddenR_real {n : ℕ} (A x : Arr n 128) (mc : Vec1 n) (Wl Wr : Arr 128 256) (b : Vec1 256) (r : Fin n)
    (q : Fin 256) (hA : ∀ i, IsReal (A i)) (hx : ∀ i, IsReal (x i)) (hWl : ∀ i, IsReal (Wl i))
    (hWr : ∀ i, IsReal (Wr i)) (hb : ∀ i, IsReal (b i)) (hmc : 1 ≤ mc (ix1 r)) :
    IsReal (hiddenR A x mc Wl Wr b r q) := by
  unfold hiddenR
  refine IsReal.max (IsReal.add (IsReal.add (isReal_sum _ _ fun k _ => (isReal_div (hA _) hmc).mul (hWl _))
    (isReal_sum _ _ fun k _ => (hx _).mul (hWr _))) (hb _)) ?_
  rw [z32_eq]
  exact isReal_zero

/-! ## The second layer: linearity -/

/-- Fact (2) over the reals: a double sum read in two orders. -/
theorem agg_linear_real {ι κ : Type*} (s : Finset ι) (u : Finset κ) (H : ι → κ → ℝ) (W : κ → ℝ) (t : ℝ) :
    (∑ e ∈ s, ∑ k ∈ u, H e k * W k) * t = ∑ k ∈ u, ((∑ e ∈ s, H e k) * t) * W k := by
  rw [Finset.sum_comm, Finset.sum_mul]
  refine Finset.sum_congr rfl fun k _ => ?_
  rw [← Finset.sum_mul]
  ring

/-- Fact (2) over the extended reals, for real-valued rows and weights. -/
theorem agg_linear {ι κ : Type*} (s : Finset ι) (u : Finset κ) (H : ι → κ → EReal) (W : κ → EReal) (t : ℝ)
    (hH : ∀ e k, IsReal (H e k)) (hW : ∀ k, IsReal (W k)) :
    (∑ e ∈ s, ∑ k ∈ u, H e k * W k) * (t : EReal) = ∑ k ∈ u, ((∑ e ∈ s, H e k) * (t : EReal)) * W k := by
  choose Hr hHr using hH
  choose Wr hWr using hW
  have e1 : (∑ e ∈ s, ∑ k ∈ u, H e k * W k) = ((∑ e ∈ s, ∑ k ∈ u, Hr e k * Wr k : ℝ) : EReal) :=
    LibERealFinite.sum_eq_coe s _ _ fun e _ =>
      LibERealFinite.sum_eq_coe u _ _ fun k _ => by rw [hHr, hWr, EReal.coe_mul]
  have e2 : ∀ k, (∑ e ∈ s, H e k) = ((∑ e ∈ s, Hr e k : ℝ) : EReal) := fun k =>
    LibERealFinite.sum_eq_coe s _ _ fun e _ => hHr e k
  rw [e1, ← EReal.coe_mul, agg_linear_real, LibERealFinite.coe_finset_sum]
  refine Finset.sum_congr rfl fun k _ => ?_
  rw [e2, hWr, EReal.coe_mul, EReal.coe_mul]

/-- The two forms of the second layer's scores agree at every entry, when the hidden rows and the aggregation
    weights are real: A2 is the aggregate of the projected rows, A2' the aggregate of the rows themselves,
    over the same edges e (those with P e), each reading row src e. -/
theorem logitsK_eq_logitsR {n : ℕ} {ι : Type*} [Fintype ι] (P : ι → Prop) [DecidablePred P] (src : ι → Fin n)
    (A2 : Arr n 128) (A2' : Arr n 256) (h : Arr n 256) (inv : Arr n 1) (mc : Vec1 n) (Wl Wr : Arr 256 128)
    (brow : Arr 1 128) (b : Vec1 128) (r : Fin n) (q : Fin 128)
    (hA2 : A2 (ix2 r q) = z32 + ∑ e, if P e then proj h Wl (src e) q else 0)
    (hA2' : ∀ k, A2' (ix2 r k) = z32 + ∑ e, if P e then h (ix2 (src e) k) else 0)
    (hh : ∀ i, IsReal (h i)) (hWl : ∀ i, IsReal (Wl i))
    (hmc : 1 ≤ mc (ix1 r)) (hinv : inv (ix2 r (0 : Fin 1)) = Ideal.div one32 (mc (ix1 r)))
    (hb : brow (ix2 (0 : Fin 1) q) = b (ix1 q)) :
    logitsK A2 h inv Wr brow r q = logitsR A2' h mc Wl Wr b r q := by
  obtain ⟨t, ht⟩ := div_eq_mul_real hmc
  unfold logitsK logitsR
  rw [hA2, hinv, hb, add_comm (∑ k : Fin 256, h (ix2 r k) * Wr (ix2 k q)), mul_div_one32 hmc]
  congr 2
  simp only [hA2', z32_eq, zero_add, ht, proj]
  rw [← Finset.sum_filter]
  simp only [← Finset.sum_filter]
  exact agg_linear _ _ (fun e k => h (ix2 (src e) k)) (fun k => Wl (ix2 k q)) t (fun e k => hh _) (fun k => hWl _)

/-- The quotient form of the second layer's scores is real-valued on real inputs. -/
theorem logitsR_real {n : ℕ} (A2' : Arr n 256) (h : Arr n 256) (mc : Vec1 n) (Wl Wr : Arr 256 128) (b : Vec1 128)
    (r : Fin n) (q : Fin 128) (hA : ∀ i, IsReal (A2' i)) (hh : ∀ i, IsReal (h i)) (hWl : ∀ i, IsReal (Wl i))
    (hWr : ∀ i, IsReal (Wr i)) (hb : ∀ i, IsReal (b i)) (hmc : 1 ≤ mc (ix1 r)) :
    IsReal (logitsR A2' h mc Wl Wr b r q) := by
  unfold logitsR
  exact IsReal.add (IsReal.add (isReal_sum _ _ fun k _ => (isReal_div (hA _) hmc).mul (hWl _))
    (isReal_sum _ _ fun k _ => (hh _).mul (hWr _))) (hb _)

/-! ## The log-softmax -/

/-- The maximum, folded from ⊥, of a nonempty finite family of real numbers is a real number. -/
theorem fold_max_real {ι : Type*} (s : Finset ι) (hs : s.Nonempty) (f : ι → ℝ) :
    ∃ v : ℝ, s.fold max ⊥ (fun i => (f i : EReal)) = (v : EReal) := by
  classical
  induction hs using Finset.Nonempty.cons_induction with
  | singleton a => exact ⟨f a, by simp⟩
  | cons a s ha hs ih =>
    obtain ⟨v, hv⟩ := ih
    exact ⟨Max.max (f a) v, by rw [Finset.fold_cons, hv, LibERealFinite.coe_max]⟩

/-- The largest of 128 real scores is a real number. -/
theorem rowMax_real (a : Fin 128 → EReal) (ha : ∀ j, IsReal (a j)) : IsReal (rowMax a) := by
  choose f hf using ha
  have hfun : a = fun j => (f j : EReal) := funext hf
  unfold rowMax
  rw [hfun, ninf32_eq]
  exact fold_max_real _ Finset.univ_nonempty f

/-- Subtracting a sum whose first term is real is subtracting its terms in turn. -/
theorem sub_add_real (a L : EReal) (m : ℝ) : a - ((m : EReal) + L) = (a - (m : EReal)) - L := by
  rw [sub_eq_add_neg, EReal.neg_add (Or.inl (EReal.coe_ne_bot m)) (Or.inl (EReal.coe_ne_top m)),
    sub_eq_add_neg (-(m : EReal)) L, ← add_assoc, ← sub_eq_add_neg, ← sub_eq_add_neg]

/-- Fact (3): the two groupings of the log-softmax agree on a row of real scores. -/
theorem lsmK_eq_lsmR (a : Fin 128 → EReal) (ha : ∀ j, IsReal (a j)) (q : Fin 128) : lsmK a q = lsmR a q := by
  obtain ⟨m, hm⟩ := rowMax_real a ha
  unfold lsmK lsmR
  rw [ninf32_eq, max_eq_right bot_le, z32_eq, zero_add, hm, sub_add_real]

end Cert.Sage

end
-- ==== Proof.Glue.lean ====
/-
  Small facts about the host side's values, read at an entry.

  The array the neighbour sums start from is zero everywhere; each row's neighbour count, floored at one, is at least
  one; the column of reciprocals reads, at row r, one divided by that row's floored count; a bias vector reshaped to a
  one-row array reads the vector. These are the side conditions under which the reciprocal form and the quotient form
  of the computation agree.
-/
import proofs.«175573_j29618094473883_2_alg».proof.Proof.HostRead
import proofs.«175573_j29618094473883_2_alg».proof.Proof.Algebra
import proofs.«175573_j29618094473883_2_alg».proof.Proof.LibColumnCast
import Idealize.ShloMosaic.Lib.ValueLayout

noncomputable section

namespace Cert.KernelIdeal.HostValue

open Cert.KernelIdeal Cert.KernelIdeal.Gen Idealize.ShloMosaic Idealize.ShloMosaic.ValueIdx Cert.Sage

theorem zeros_apply (i : S50000x128.Idx) : zeros i = z32 := rfl

/-- The maximum of any vector with the all-ones vector is at least one, at every row. -/
theorem max_ones_ge (A : FVec Ideal S50000 .f32) (r : Fin 50000) :
    (1 : EReal) ≤ (maximumf A (broadcastInDim S50000 ![] bcast_S_S50000 (constant (F := Ideal) S_ .f32 0x3F800000#32))) (ix1 r) := by
  show (1 : EReal) ≤ max (A (ix1 r)) (Ideal.ofBits .f32 0x3F800000#32)
  rw [show Ideal.ofBits .f32 0x3F800000#32 = (1 : EReal) from one32_eq]
  exact le_max_right _ _

/-- The floored count is at least one: it is a maximum with one. -/
theorem cnt1_ge (x1 : IVec S2x800000 32) (r : Fin 50000) : (1 : EReal) ≤ cnt1 x1 (ix1 r) := by
  unfold cnt1
  exact max_ones_ge _ r

/-- One, repeated along the rows, divided entrywise by a vector: at row r, one over the vector's entry. -/
theorem divf_one_apply (C : FVec Ideal S50000 .f32) (r : Fin 50000) :
    (Host.divf (broadcastInDim S50000 ![] bcast_S_S50000 (constant (F := Ideal) S_ .f32 0x3F800000#32)) C) (ix1 r)
      = Ideal.div one32 (C (ix1 r)) := rfl

/-- The reciprocal column at row r. -/
theorem invCol_apply (x1 : IVec S2x800000 32) (r : Fin 50000) :
    invCol x1 (ix2 r (0 : Fin 1)) = Ideal.div one32 (cnt1 x1 (ix1 r)) := by
  unfold invCol
  generalize cnt1 x1 = C
  refine (Cert.LibColumnCast.shapeCast_a_a1_apply
    (Host.divf (broadcastInDim S50000 ![] bcast_S_S50000 (constant (F := Ideal) S_ .f32 0x3F800000#32)) C)
    shapeCasts_S50000_S50000x1 r 0).trans ?_
  exact divf_one_apply C r

/-- The first bias as a one-row array. -/
theorem bias1_apply (x4 : FVec Ideal S256 .f32) (q : Fin 256) :
    shapeCast S1x256 x4 shapeCasts_S256_S1x256 (ix2 (0 : Fin 1) q) = x4 (ix1 q) :=
  shapeCast_a_1a_apply x4 shapeCasts_S256_S1x256 0 q

/-- The second bias as a one-row array. -/
theorem bias2_apply (x7 : FVec Ideal S128 .f32) (q : Fin 128) :
    shapeCast S1x128 x7 shapeCasts_S128_S1x128 (ix2 (0 : Fin 1) q) = x7 (ix1 q) :=
  shapeCast_a_1a_apply x7 shapeCasts_S128_S1x128 0 q

end Cert.KernelIdeal.HostValue

end
-- ==== Proof.RefRun.lean ====
/-
  The reference program's run, read back in three stages.

  The reference is one straight line of 88 host operations. Its result depends on the hidden rows through several
  paths and on the scores through four, so the one composed term of the whole line repeats those values many times.
  Reading the line in three stages keeps every stage's term small: operations 1–38 produce the hidden rows from the
  arguments; operations 39–73 produce the scores from the hidden rows and the arguments; operations 74–88 produce the
  log-softmax from the scores. Each stage's result is the corresponding stage function of the arguments, so the
  result buffer ends at the last stage function of the launch contents of the arguments, which no operation writes.
-/
import proofs.«175573_j29618094473883_2_alg».proof.Proof.RefOps
import proofs.«175573_j29618094473883_2_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running a line in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_split (n : ℕ) (l : List (HloOp τ sig (Elt F))) (V : Valuation τ sig (Elt F)) :
    after l V = after (l.drop n) (after (l.take n) V) := by
  rw [← after_append, List.take_append_drop]

/-! ## Stage one: the hidden rows -/

set_option maxHeartbeats 4000000 in
theorem stage1 (V : Valuation τ sig (Elt F)) :
    after (ops.take 38) V (Proc.devRef .tc main_v29)
      = val_main_v29 (F := F) (V (Proc.devRef .tc main_arg0)) (V (Proc.devRef .tc main_arg1)) (V (Proc.devRef .tc main_arg2))
          (V (Proc.devRef .tc main_arg3)) (V (Proc.devRef .tc main_arg4)) := by
  simp only [ops, List.take_succ_cons, List.take_zero]
  after_results_simp
  rfl

set_option maxHeartbeats 4000000 in
/-- The first stage writes no argument. -/
theorem stage1_args (V : Valuation τ sig (Elt F)) :
    after (ops.take 38) V (Proc.devRef .tc main_arg1) = V (Proc.devRef .tc main_arg1)
    ∧ after (ops.take 38) V (Proc.devRef .tc main_arg5) = V (Proc.devRef .tc main_arg5)
    ∧ after (ops.take 38) V (Proc.devRef .tc main_arg6) = V (Proc.devRef .tc main_arg6)
    ∧ after (ops.take 38) V (Proc.devRef .tc main_arg7) = V (Proc.devRef .tc main_arg7) := by
  simp only [ops, List.take_succ_cons, List.take_zero]
  refine ⟨?_, ?_, ?_, ?_⟩ <;> after_results_simp

/-! ## Stage two: the scores, from the hidden rows and the arguments -/

set_option maxHeartbeats 4000000 in
/-- Operations 39–73 at any contents `T`: the scores as the operations' term of `T` at the hidden rows' buffer and at
    the arguments. -/
theorem stage2 (x0 : (⟨S50000x128, .f32⟩ : BufTy).Contents (Elt F)) (x1 : (⟨S2x800000, .i32⟩ : BufTy).Contents (Elt F))
    (x2 x3 : (⟨S128x256, .f32⟩ : BufTy).Contents (Elt F)) (x4 : (⟨S256, .f32⟩ : BufTy).Contents (Elt F))
    (x5 x6 : (⟨S256x128, .f32⟩ : BufTy).Contents (Elt F)) (x7 : (⟨S128, .f32⟩ : BufTy).Contents (Elt F))
    (T : Valuation τ sig (Elt F))
    (h29 : T (Proc.devRef .tc main_v29) = val_main_v29 (F := F) x0 x1 x2 x3 x4)
    (h1 : T (Proc.devRef .tc main_arg1) = x1) (h5 : T (Proc.devRef .tc main_arg5) = x5)
    (h6 : T (Proc.devRef .tc main_arg6) = x6) (h7 : T (Proc.devRef .tc main_arg7) = x7) :
    after ((ops.drop 38).take 35) T (Proc.devRef .tc main_v58) = val_main_v58 (F := F) x0 x1 x2 x3 x4 x5 x6 x7 := by
  simp only [ops, List.drop_succ_cons, List.drop_zero, List.take_succ_cons, List.take_zero]
  after_results_simp
  rw [h29, h1, h5, h6, h7]
  rfl

/-! ## Stage three: the log-softmax, from the scores

The log-softmax is a called function; its operations store each value through a reference that carries the value's
type and read it back through the same reference. Reading back what was stored is the identity, the scores' buffer
read at its type is the buffer, and the result's buffer holds what is written to it; with these the stage's term is
the operations' own term of the scores. -/

/-- Reading back what was stored through a typed reference gives the value. -/
theorem ofBuf_toBuf {Ty : BufTy} (x : TRef sig Ty) (v : Ty.Contents (Elt F)) : x.ofBuf (x.toBuf v) = v := by
  obtain ⟨r, h, a, b⟩ := x
  subst h
  rfl

/-- The scores' buffer read at its type. -/
theorem ofBuf_scores (Y : (⟨S50000x128, .f32⟩ : BufTy).Contents (Elt F)) :
    (TRef.of (T := ⟨S50000x128, .f32⟩) main_v58).ofBuf Y = Y := rfl
/-- The result's buffer holds what is written to it. -/
theorem toBuf_result (Y : (⟨S50000x128, .f32⟩ : BufTy).Contents (Elt F)) :
    (TRef.of (T := ⟨S50000x128, .f32⟩) main_v59).toBuf Y = Y := rfl

set_option maxHeartbeats 1000000 in
/-- Operations 74–88: the log-softmax from the scores. -/
theorem stage3 (x0 : (⟨S50000x128, .f32⟩ : BufTy).Contents (Elt F)) (x1 : (⟨S2x800000, .i32⟩ : BufTy).Contents (Elt F))
    (x2 x3 : (⟨S128x256, .f32⟩ : BufTy).Contents (Elt F)) (x4 : (⟨S256, .f32⟩ : BufTy).Contents (Elt F))
    (x5 x6 : (⟨S256x128, .f32⟩ : BufTy).Contents (Elt F)) (x7 : (⟨S128, .f32⟩ : BufTy).Contents (Elt F))
    (T : Valuation τ sig (Elt F))
    (h58 : T (Proc.devRef .tc main_v58) = val_main_v58 (F := F) x0 x1 x2 x3 x4 x5 x6 x7) :
    after ((ops.drop 38).drop 35) T (Proc.devRef .tc main_v59) = val_main_v59 (F := F) x0 x1 x2 x3 x4 x5 x6 x7 := by
  have e58 : (TRef.of (T := ⟨S50000x128, .f32⟩) main_v58).ofBuf (T (Proc.devRef .tc main_v58)) = val_main_v58 (F := F) x0 x1 x2 x3 x4 x5 x6 x7 :=
    (ofBuf_scores _).trans h58
  simp only [ops, List.drop_succ_cons, List.drop_zero]
  after_results_simp
  simp only [ofBuf_toBuf]
  rw [e58]
  refine (toBuf_result _).trans ?_
  rfl

/-! ## The whole line -/

/-- The result buffer after the 88 operations, from any contents `V`: the last stage function of `V` at the arguments. -/
theorem result_eq (V : Valuation τ sig (Elt F)) :
    after (ops (F := F)) V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  obtain ⟨a1, a5, a6, a7⟩ := stage1_args (F := F) V
  have hA := stage1 (F := F) V
  rw [after_split 38 ops V, after_split 35 (ops.drop 38) (after (ops.take 38) V)]
  exact stage3 _ _ _ _ _ _ _ _ _ (stage2 _ _ _ _ _ _ _ _ _ hA a1 a5 a6 a7)

set_option maxHeartbeats 8000000 in
/-- No operation writes an argument. -/
theorem args_eq (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7) := by
  refine ⟨?_, ?_, ?_, ?_, ?_, ?_, ?_, ?_⟩ <;> after_results_simp

/-- On every device, from any memory with zero counters: every weakly fair execution of the reference terminates with
    the result buffer at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = val_main_v59 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v59).trans (result_eq (launchContents m c)),
       (h c main_arg0).trans (args_eq (launchContents m c)).1,
       (h c main_arg1).trans (args_eq (launchContents m c)).2.1,
       (h c main_arg2).trans (args_eq (launchContents m c)).2.2.1,
       (h c main_arg3).trans (args_eq (launchContents m c)).2.2.2.1,
       (h c main_arg4).trans (args_eq (launchContents m c)).2.2.2.2.1,
       (h c main_arg5).trans (args_eq (launchContents m c)).2.2.2.2.2.1,
       (h c main_arg6).trans (args_eq (launchContents m c)).2.2.2.2.2.2.1,
       (h c main_arg7).trans (args_eq (launchContents m c)).2.2.2.2.2.2.2⟩)
    (run_seq scopedRefs_eq scopedSems_eq defs main (fun _ => ops) main_eq (fun _ => ops_sub) m ρ)

end Cert.ReferenceIdeal.RunValue

end
-- ==== Proof.RefValue.lean ====
/-
  The reference program's result, entry by entry: it is the quotient form of two rounds of mean aggregation, each
  followed by a dense layer, then a row-wise log-softmax.

  Each stage of the program is read at an index from its operands. The sum of in-neighbour rows is the program's
  accumulating scatter of the gathered rows, as it stands. The second round's copies of the source numbers, the
  destination numbers and the floored neighbour count are the same terms as the first round's. The row maximum is a
  fold of max from −∞ over the row's 128 entries. Reading the stages outermost first gives, at row r and column q,
  the hidden rows' formula, the scores' formula and the log-softmax's formula of the quotient form.
-/
import proofs.«175573_j29618094473883_2_alg».proof.Proof.RefRead
import proofs.«175573_j29618094473883_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Cert.Sage Idealize.ShloMosaic Idealize.ShloMosaic.ValueIdx

/-! ## The aggregates and the repeated index arrays -/

/-- The first round's aggregate is the sum of in-neighbour rows of the input. -/
theorem v13_eq (x0 : (⟨S50000x128, .f32⟩ : BufTy).Contents (Elt Ideal)) (x1 : (⟨S2x800000, .i32⟩ : BufTy).Contents (Elt Ideal)) :
    val_main_v13 (F := Ideal) x0 x1
      = nbrSum scatter_S50000x128_S800000x1_S800000x128_1_0_0_1 gather_S50000x128_S800000x1_S800000x128_1_0_n_n_0_1_1128
          (val_main_v11 (F := Ideal)) x0 (val_main_v9 (F := Ideal) x1) (val_main_v12 (F := Ideal) x1) := rfl

/-- The second round reads the same source numbers. -/
theorem v39_eq (x1 : (⟨S2x800000, .i32⟩ : BufTy).Contents (Elt Ideal)) :
    val_main_v39 (F := Ideal) x1 = val_main_v9 (F := Ideal) x1 := rfl

/-- The second round reads the same destination numbers. -/
theorem v42_eq (x1 : (⟨S2x800000, .i32⟩ : BufTy).Contents (Elt Ideal)) :
    val_main_v42 (F := Ideal) x1 = val_main_v12 (F := Ideal) x1 := rfl

/-- The second round's floored neighbour count is the first round's. -/
theorem v49_eq (x1 : (⟨S2x800000, .i32⟩ : BufTy).Contents (Elt Ideal)) :
    val_main_v49 (F := Ideal) x1 = val_main_v19 (F := Ideal) x1 := rfl

/-- The second round's aggregate is the sum of in-neighbour rows of the hidden rows. -/
theorem v43_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    val_main_v43 (F := Ideal) x0 x1 x2 x3 x4
      = nbrSum scatter_S50000x256_S800000x1_S800000x256_1_0_0_1 gather_S50000x256_S800000x1_S800000x256_1_0_n_n_0_1_1256
          (val_main_v41 (F := Ideal)) (val_main_v29 (F := Ideal) x0 x1 x2 x3 x4) (val_main_v9 (F := Ideal) x1)
          (val_main_v12 (F := Ideal) x1) := rfl

/-! ## The hidden rows -/

/-- The first round's aggregate divided by the floored neighbour count, at (r, k). -/
theorem v22_at (x0 : (⟨S50000x128, .f32⟩ : BufTy).Contents (Elt Ideal)) (x1 : (⟨S2x800000, .i32⟩ : BufTy).Contents (Elt Ideal)) (r : Fin 50000) (k : Fin 128) :
    val_main_v22 (F := Ideal) x0 x1 (ix2 r k)
      = Ideal.div (nbrSum scatter_S50000x128_S800000x1_S800000x128_1_0_0_1 gather_S50000x128_S800000x1_S800000x128_1_0_n_n_0_1_1128
          (val_main_v11 (F := Ideal)) x0 (val_main_v9 (F := Ideal) x1) (val_main_v12 (F := Ideal) x1) (ix2 r k)) (val_main_v19 (F := Ideal) x1 (ix1 r)) := by
  have eC : idx_main_v20 (idx_main_v21 (ix2 r k)) = ix1 r := funext fun a => Fin.ext (by match a with | ⟨0, _⟩ => rfl)
  rw [val_main_v22_apply, val_main_v21_apply, val_main_v20_apply, eC, v13_eq, Ideal.hostDivf_def]

/-- The program's hidden rows at (r, q) are the quotient form's. -/
theorem hidden_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) (r : Fin 50000) (q : Fin 256) :
    val_main_v29 (F := Ideal) x0 x1 x2 x3 x4 (ix2 r q)
      = hiddenR (nbrSum scatter_S50000x128_S800000x1_S800000x128_1_0_0_1 gather_S50000x128_S800000x1_S800000x128_1_0_n_n_0_1_1128
          (val_main_v11 (F := Ideal)) x0 (val_main_v9 (F := Ideal) x1) (val_main_v12 (F := Ideal) x1)) x0 (val_main_v19 (F := Ideal) x1) x2 x3 x4 r q := by
  have eL : ∀ k : Fin 128, lidx_main_v23 (ix2 r q) k = ix2 r k := fun k => funext fun a => Fin.ext (by match a with | ⟨0, _⟩ => rfl | ⟨1, _⟩ => rfl)
  have eR : ∀ k : Fin 128, ridx_main_v23 (ix2 r q) k = ix2 k q := fun k => funext fun a => Fin.ext (by match a with | ⟨0, _⟩ => rfl | ⟨1, _⟩ => rfl)
  have eL' : ∀ k : Fin 128, lidx_main_v24 (ix2 r q) k = ix2 r k := fun k => funext fun a => Fin.ext (by match a with | ⟨0, _⟩ => rfl | ⟨1, _⟩ => rfl)
  have eR' : ∀ k : Fin 128, ridx_main_v24 (ix2 r q) k = ix2 k q := fun k => funext fun a => Fin.ext (by match a with | ⟨0, _⟩ => rfl | ⟨1, _⟩ => rfl)
  have eB : idx_main_v26 (idx_main_v27 (ix2 r q)) = ix1 q := funext fun a => Fin.ext (by match a with | ⟨0, _⟩ => rfl)
  have e23 : ∀ k : Fin 128, val_main_v22 (F := Ideal) x0 x1 (lidx_main_v23 (ix2 r q) k) * x2 (ridx_main_v23 (ix2 r q) k)
      = Ideal.div (nbrSum scatter_S50000x128_S800000x1_S800000x128_1_0_0_1 gather_S50000x128_S800000x1_S800000x128_1_0_n_n_0_1_1128
          (val_main_v11 (F := Ideal)) x0 (val_main_v9 (F := Ideal) x1) (val_main_v12 (F := Ideal) x1) (ix2 r k)) (val_main_v19 (F := Ideal) x1 (ix1 r)) * x2 (ix2 k q) :=
    fun k => by rw [eL k, eR k, v22_at]
  have e24 : ∀ k : Fin 128, x0 (lidx_main_v24 (ix2 r q) k) * x3 (ridx_main_v24 (ix2 r q) k) = x0 (ix2 r k) * x3 (ix2 k q) :=
    fun k => by rw [eL' k, eR' k]
  rw [val_main_v29_apply, val_main_v28_apply, val_main_v25_apply, val_main_v23_apply, val_main_v24_apply,
    val_main_v27_apply, val_main_v26_apply, val_main_call0_v0_apply, val_main_call0_cst_apply, eB,
    Finset.sum_congr rfl fun k _ => e23 k, Finset.sum_congr rfl fun k _ => e24 k,
    Ideal.maximumf_def, Ideal.addf_def, Ideal.addf_def, Ideal.ofBits_def]
  unfold hiddenR
  rfl

/-- The program's hidden rows are the quotient form's. -/
theorem hidden_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    val_main_v29 (F := Ideal) x0 x1 x2 x3 x4
      = hidR scatter_S50000x128_S800000x1_S800000x128_1_0_0_1 gather_S50000x128_S800000x1_S800000x128_1_0_n_n_0_1_1128
          (val_main_v11 (F := Ideal)) x0 (val_main_v9 (F := Ideal) x1) (val_main_v12 (F := Ideal) x1) x2 x3
          (val_main_v19 (F := Ideal) x1) x4 := by
  funext i
  obtain ⟨r, q, rfl⟩ : ∃ (r : Fin 50000) (q : Fin 256), i = ix2 r q := ⟨i 0, i 1, eq_ix2 i⟩
  rw [hidden_at]
  unfold hidR
  rw [arr2_apply]

/-! ## The scores -/

/-- The second round's aggregate divided by the floored neighbour count, at (r, k). -/
theorem v52_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) (r : Fin 50000) (k : Fin 256) :
    val_main_v52 (F := Ideal) x0 x1 x2 x3 x4 (ix2 r k)
      = Ideal.div (nbrSum scatter_S50000x256_S800000x1_S800000x256_1_0_0_1 gather_S50000x256_S800000x1_S800000x256_1_0_n_n_0_1_1256
          (val_main_v41 (F := Ideal)) (val_main_v29 (F := Ideal) x0 x1 x2 x3 x4) (val_main_v9 (F := Ideal) x1)
          (val_main_v12 (F := Ideal) x1) (ix2 r k)) (val_main_v19 (F := Ideal) x1 (ix1 r)) := by
  have eC : idx_main_v50 (idx_main_v51 (ix2 r k)) = ix1 r := funext fun a => Fin.ext (by match a with | ⟨0, _⟩ => rfl)
  rw [val_main_v52_apply, val_main_v51_apply, val_main_v50_apply, eC, v43_eq, v49_eq, Ideal.hostDivf_def]

/-- The program's scores are the quotient form's, over the program's hidden rows. -/
theorem scores_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (r : Fin 50000) (j : Fin 128) :
    val_main_v58 (F := Ideal) x0 x1 x2 x3 x4 x5 x6 x7 (ix2 r j)
      = logitsR (nbrSum scatter_S50000x256_S800000x1_S800000x256_1_0_0_1 gather_S50000x256_S800000x1_S800000x256_1_0_n_n_0_1_1256
          (val_main_v41 (F := Ideal)) (val_main_v29 (F := Ideal) x0 x1 x2 x3 x4) (val_main_v9 (F := Ideal) x1)
          (val_main_v12 (F := Ideal) x1))
          (val_main_v29 (F := Ideal) x0 x1 x2 x3 x4) (val_main_v19 (F := Ideal) x1) x5 x6 x7 r j := by
  have eL : ∀ k : Fin 256, lidx_main_v53 (ix2 r j) k = ix2 r k := fun k => funext fun a => Fin.ext (by match a with | ⟨0, _⟩ => rfl | ⟨1, _⟩ => rfl)
  have eR : ∀ k : Fin 256, ridx_main_v53 (ix2 r j) k = ix2 k j := fun k => funext fun a => Fin.ext (by match a with | ⟨0, _⟩ => rfl | ⟨1, _⟩ => rfl)
  have eL' : ∀ k : Fin 256, lidx_main_v54 (ix2 r j) k = ix2 r k := fun k => funext fun a => Fin.ext (by match a with | ⟨0, _⟩ => rfl | ⟨1, _⟩ => rfl)
  have eR' : ∀ k : Fin 256, ridx_main_v54 (ix2 r j) k = ix2 k j := fun k => funext fun a => Fin.ext (by match a with | ⟨0, _⟩ => rfl | ⟨1, _⟩ => rfl)
  have eB : idx_main_v56 (idx_main_v57 (ix2 r j)) = ix1 j := funext fun a => Fin.ext (by match a with | ⟨0, _⟩ => rfl)
  have e53 : ∀ k : Fin 256, val_main_v52 (F := Ideal) x0 x1 x2 x3 x4 (lidx_main_v53 (ix2 r j) k) * x5 (ridx_main_v53 (ix2 r j) k)
      = Ideal.div (nbrSum scatter_S50000x256_S800000x1_S800000x256_1_0_0_1 gather_S50000x256_S800000x1_S800000x256_1_0_n_n_0_1_1256
          (val_main_v41 (F := Ideal)) (val_main_v29 (F := Ideal) x0 x1 x2 x3 x4) (val_main_v9 (F := Ideal) x1)
          (val_main_v12 (F := Ideal) x1) (ix2 r k)) (val_main_v19 (F := Ideal) x1 (ix1 r)) * x5 (ix2 k j) :=
    fun k => by rw [eL k, eR k, v52_at]
  have e54 : ∀ k : Fin 256, val_main_v29 (F := Ideal) x0 x1 x2 x3 x4 (lidx_main_v54 (ix2 r j) k) * x6 (ridx_main_v54 (ix2 r j) k)
      = val_main_v29 (F := Ideal) x0 x1 x2 x3 x4 (ix2 r k) * x6 (ix2 k j) :=
    fun k => by rw [eL' k, eR' k]
  rw [val_main_v58_apply, val_main_v55_apply, val_main_v53_apply, val_main_v54_apply, val_main_v57_apply,
    val_main_v56_apply, eB, Finset.sum_congr rfl fun k _ => e53 k, Finset.sum_congr rfl fun k _ => e54 k,
    Ideal.addf_def, Ideal.addf_def]
  unfold logitsR
  rfl

/-! ## The log-softmax -/

/-- The reduced index r with column k put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c
  apply Fin.ext
  fin_cases c <;> rfl

/-- A reduction of an m × n array along its rows with a maximum body is, at row r, the fold of max from the
    initial value over the row's n entries. -/
theorem reduce_max_row {m n : ℕ} (x : (⟨2, ![m, n]⟩ : Shape).Idx → EReal) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce (max : EReal → EReal → EReal) x init h' hu (ix1 r)
      = (Finset.univ : Finset (Fin n)).fold max (init (Shape.Idx.first hu)) (fun j => x (ix2 r j)) := by
  rw [Host.reduce_eq_fold_single max x _ h' h hu]
  have hf : (x ∘ h.lift (ix1 r)) = fun k : Fin n => x (ix2 r k) := funext fun k => congrArg x (lift_row h r k)
  exact congrArg (fun f => Finset.fold max (init (Shape.Idx.first hu)) f (Finset.univ : Finset (Fin n))) hf

/-- The program's row maximum is the fold of max from −∞ over the row's scores. -/
theorem rowmax_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (r : Fin 50000) :
    val_main_call1_v0 (F := Ideal) x0 x1 x2 x3 x4 x5 x6 x7 (ix1 r)
      = rowMax (fun j => val_main_v58 (F := Ideal) x0 x1 x2 x3 x4 x5 x6 x7 (ix2 r j)) := by
  have h : S50000x128.Reduces [1] S50000 := by decide
  have hc : val_main_call1_cst (F := Ideal) (Shape.Idx.first h_S_) = ninf32 := rfl
  unfold val_main_call1_v0 rowMax
  rw [← hc]
  exact reduce_max_row (val_main_v58 (F := Ideal) x0 x1 x2 x3 x4 x5 x6 x7) (val_main_call1_cst (F := Ideal))
    reducesTo_S50000x128_S50000_d1 h h_S_ r

/-- The row maximum taken once more against −∞, broadcast along the row. -/
theorem c1v4_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (r : Fin 50000) (k : Fin 128) :
    val_main_call1_v4 (F := Ideal) x0 x1 x2 x3 x4 x5 x6 x7 (ix2 r k) = max ninf32 (rowMax (fun j => val_main_v58 (F := Ideal) x0 x1 x2 x3 x4 x5 x6 x7 (ix2 r j))) := by
  have e4 : idx_main_call1_v3 (idx_main_call1_v4 (ix2 r k)) = ix1 r := funext fun a => Fin.ext (by match a with | ⟨0, _⟩ => rfl)
  rw [val_main_call1_v4_apply, val_main_call1_v3_apply, e4, val_main_call1_v2_apply, val_main_call1_v1_apply,
    val_main_call1_cst_0_apply, rowmax_eq, Ideal.maximumf_def, Ideal.ofBits_def]

/-- The scores shifted by the row maximum. -/
theorem c1v5_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (r : Fin 50000) (k : Fin 128) :
    val_main_call1_v5 (F := Ideal) x0 x1 x2 x3 x4 x5 x6 x7 (ix2 r k) = val_main_v58 (F := Ideal) x0 x1 x2 x3 x4 x5 x6 x7 (ix2 r k) - max ninf32 (rowMax (fun j => val_main_v58 (F := Ideal) x0 x1 x2 x3 x4 x5 x6 x7 (ix2 r j))) := by
  rw [val_main_call1_v5_apply, c1v4_at, Ideal.subf_def]

/-- The program's result at (r, q) is the log-softmax, in the quotient form's grouping, of row r of the scores. -/
theorem out_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (r : Fin 50000) (q : Fin 128) :
    val_main_v59 (F := Ideal) x0 x1 x2 x3 x4 x5 x6 x7 (ix2 r q)
      = lsmR (fun j => val_main_v58 (F := Ideal) x0 x1 x2 x3 x4 x5 x6 x7 (ix2 r j)) q := by
  have e10 : idx_main_call1_v8 (idx_main_call1_v10 (ix2 r q)) = ix1 r := funext fun a => Fin.ext (by match a with | ⟨0, _⟩ => rfl)
  have e7 : ∀ k : Fin 128, idx_main_call1_v7 (ix1 r) k = ix2 r k := fun k => funext fun a => Fin.ext (by match a with | ⟨0, _⟩ => rfl | ⟨1, _⟩ => rfl)
  have e6 : ∀ k : Fin 128, val_main_call1_v6 (F := Ideal) x0 x1 x2 x3 x4 x5 x6 x7 (idx_main_call1_v7 (ix1 r) k)
      = Ideal.exp (val_main_v58 (F := Ideal) x0 x1 x2 x3 x4 x5 x6 x7 (ix2 r k) - max ninf32 (rowMax (fun j => val_main_v58 (F := Ideal) x0 x1 x2 x3 x4 x5 x6 x7 (ix2 r j)))) :=
    fun k => by rw [e7 k, val_main_call1_v6_apply, c1v5_at, Ideal.hostUnary_exp_def]
  rw [val_main_v59_apply, val_main_call1_v10_apply, val_main_call1_v9_apply, val_main_call1_v8_apply, e10,
    val_main_call1_v7_apply, Finset.sum_congr rfl fun k _ => e6 k, c1v5_at, val_main_call1_cst_1_apply,
    Ideal.subf_def, Ideal.hostUnary_log_def, Ideal.ofBits_def]
  unfold lsmR
  rfl

/-! ## The whole program -/

theorem ref_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) :
    val_main_v59 (F := Ideal) x0 x1 x2 x3 x4 x5 x6 x7
      = outR scatter_S50000x128_S800000x1_S800000x128_1_0_0_1 gather_S50000x128_S800000x1_S800000x128_1_0_n_n_0_1_1128
          scatter_S50000x256_S800000x1_S800000x256_1_0_0_1 gather_S50000x256_S800000x1_S800000x256_1_0_n_n_0_1_1256
          (val_main_v11 (F := Ideal)) (val_main_v41 (F := Ideal)) x0 (val_main_v9 (F := Ideal) x1) (val_main_v12 (F := Ideal) x1)
          x2 x3 x5 x6 (val_main_v19 (F := Ideal) x1) x4 x7 := by
  funext i
  obtain ⟨r, q, rfl⟩ : ∃ (r : Fin 50000) (q : Fin 128), i = ix2 r q := ⟨i 0, i 1, eq_ix2 i⟩
  rw [out_at]
  unfold outR
  rw [arr2_apply]
  refine congrArg (fun a => lsmR a q) (funext fun j => ?_)
  rw [scores_eq, hidden_eq]

end Cert.ReferenceIdeal.RefValue

end
-- ==== Proof.LibRowScatter.lean ====
/-
  Two host operations on whole rows of a two-dimensional table, read at one entry.

  (1) Gathering rows. For a table of N rows and C columns and a list of E row numbers, the gathered array has E rows
      and C columns; its entry (e, q) is the table's entry (row named by e, q), where the row number is read as a
      signed integer and clamped into [0, N - 1].

  (2) Accumulating rows. For a base array of N rows and C columns, a list of E row numbers and E update rows of C
      columns, the accumulated array's entry (r, q) is the base entry plus the sum, over the positions e whose row
      number (read as a signed integer) is exactly r, of the update entry (e, q). A row number outside [0, N - 1]
      names no row and contributes nothing.
-/
import Idealize.ShloMosaic.PureOps.Ideal
import Idealize.ShloMosaic.Lib.ValueIdx

noncomputable section

open scoped BigOperators

namespace Cert.LibRowScatter
open Idealize.ShloMosaic Idealize.ShloMosaic.ValueIdx

/-- dimension numbers of x[rows]: offset_dims [1], collapsed_slice_dims [0], start_index_map [0], index_vector_dim 1, slice_sizes [1, C] -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- dimension numbers of the row scatter: update_window_dims [1], inserted_window_dims [0], scatter_dims_to_operand_dims [0], index_vector_dim 1 -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row that edge e's start index names: read as a signed integer and clamped into [0, N − 1]. -/
def rowAt {E w : Nat} (N : Nat) (hN : 0 < N) (idx : IVec ⟨2, ![E, 1]⟩ w) (e : Fin E) : Fin N :=
  ⟨min (idx (ix2 e (0 : Fin 1))).toInt.toNat (N - 1), by omega⟩

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (rowAt N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hne : ∀ h : (1 : Fin 2) = 0, False := fun h => Nat.one_ne_zero (congrArg Fin.val h)
    have hnm : (1 : Fin 2) ∉ (rowGatherDims N E C wf).startIndexMap := fun h => hne (List.mem_singleton.mp h)
    have hk : (1 : Fin 2) ∈ (rowGatherDims N E C wf).sKept :=
      (GatherDims.mem_sKept _ _).mpr ⟨fun h => hne (List.mem_singleton.mp h), List.not_mem_nil⟩
    unfold GatherDims.start GatherDims.offCoord
    rw [dif_neg hnm, dif_pos hk]
    simp only [Nat.zero_add]
    rfl

/-! ## The accumulating scatter of rows -/

section Scatter
variable {N E C w : Nat} (wf : ScatterDims.WF ⟨2, ![N, C]⟩ ⟨2, ![E, 1]⟩ ⟨2, ![E, C]⟩ [1] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the row axis the window of update (e, q') starts at e's row number, read as a signed integer. -/
theorem scatter_start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start_col (idx : IVec ⟨2, ![E, 1]⟩ w) (e : Fin E) (q' : Fin C) :
    (rowScatterDims N E C wf).start (ix2 e q') idx 1 = 0 := by
  unfold ScatterDims.start
  rw [dif_neg (fun h => Nat.one_ne_zero (congrArg Fin.val (List.mem_singleton.mp h)))]

/-- The row axis is inserted: the window coordinate there is 0. -/
theorem scatter_window_row (e : Fin E) (q' : Fin C) : (rowScatterDims N E C wf).window (ix2 e q') 0 = 0 := by
  unfold ScatterDims.window
  rw [dif_neg (fun h => ((mem_kept _ _).mp h) (List.mem_singleton.mpr rfl))]

/-- On the column axis the window coordinate is the update's column. -/
theorem scatter_window_col (e : Fin E) (q' : Fin C) : (rowScatterDims N E C wf).window (ix2 e q') 1 = q'.val := by
  unfold ScatterDims.window
  rw [dif_pos ((mem_kept _ _).mpr (fun h => Nat.one_ne_zero (congrArg Fin.val (List.mem_singleton.mp h))))]
  rfl

/-- Update (e, q') lands at entry (r, q) exactly when e's row number is r and q' = q. -/
theorem resultIdx_eq_some_iff (idx : IVec ⟨2, ![E, 1]⟩ w) (e : Fin E) (q' : Fin C) (r : Fin N) (q : Fin C) :
    (rowScatterDims N E C wf).resultIdx? (ix2 e q') idx = some (ix2 r q)
      ↔ (idx (ix2 e (0 : Fin 1))).toInt = (r.val : ℤ) ∧ q' = q := by
  have hs0 := scatter_start_row wf idx e q'
  have hs1 := scatter_start_col wf idx e q'
  have hw0 := scatter_window_row wf e q'
  have hw1 := scatter_window_col wf e q'
  unfold ScatterDims.resultIdx?
  constructor
  · intro h
    split at h
    · rename_i hall
      have hf := Option.some.inj h
      have h0 : ((rowScatterDims N E C wf).start (ix2 e q') idx 0
          + ((rowScatterDims N E C wf).window (ix2 e q') 0 : ℤ)).toNat = r.val :=
        congrArg (fun f => (f 0).val) hf
      have h1 : ((rowScatterDims N E C wf).start (ix2 e q') idx 1
          + ((rowScatterDims N E C wf).window (ix2 e q') 1 : ℤ)).toNat = q.val :=
        congrArg (fun f => (f 1).val) hf
      have ha0 := (hall 0).1
      rw [hs0, hw0] at h0 ha0
      rw [hs1, hw1] at h1
      refine ⟨by omega, Fin.ext (by omega)⟩
    · exact absurd h (by simp)
  · rintro ⟨hI, rfl⟩
    have hall : ∀ a, 0 ≤ (rowScatterDims N E C wf).start (ix2 e q') idx a + ((rowScatterDims N E C wf).window (ix2 e q') a : ℤ)
        ∧ (rowScatterDims N E C wf).start (ix2 e q') idx a + ((rowScatterDims N E C wf).window (ix2 e q') a : ℤ)
          < (((⟨2, ![N, C]⟩ : Shape).size a : ℕ) : ℤ) := by
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < ((N : ℕ) : ℤ)
        rw [hs0, hw0, hI]
        have := r.isLt
        omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < ((C : ℕ) : ℤ)
        rw [hs1, hw1]
        have := q'.isLt
        omega
    rw [dif_pos hall]
    congr 1
    funext a
    refine Fin.ext ?_
    match a with
    | ⟨0, _⟩ =>
      show ((rowScatterDims N E C wf).start (ix2 e q') idx 0 + ((rowScatterDims N E C wf).window (ix2 e q') 0 : ℤ)).toNat = r.val
      rw [hs0, hw0, hI]
      omega
    | ⟨1, _⟩ =>
      show ((rowScatterDims N E C wf).start (ix2 e q') idx 1 + ((rowScatterDims N E C wf).window (ix2 e q') 1 : ℤ)).toNat = q'.val
      rw [hs1, hw1]
      omega

end Scatter

/-- THE ROW SCATTER READ AT (r, q): the base entry plus the sum, over the positions e whose row number is r, of the
    update entry (e, q). -/
theorem scatterAdd_rows_apply {N E C w : Nat}
    (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (upd : (⟨2, ![E, C]⟩ : Shape).Idx → EReal) (r : Fin N) (q : Fin C) :
    Ideal.hostScatterAdd (rowScatterDims N E C wf) x0 idx upd (ix2 r q)
      = x0 (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl (fun e _ => ?_)
  rw [Finset.sum_eq_single q]
  · by_cases h : (idx (ix2 e (0 : Fin 1))).toInt = (r.val : ℤ)
    · rw [if_pos h, if_pos ((resultIdx_eq_some_iff wf idx e q r q).mpr ⟨h, rfl⟩)]
    · rw [if_neg h, if_neg (fun hh => h ((resultIdx_eq_some_iff wf idx e q r q).mp hh).1)]
  · intro q' _ hne
    rw [if_neg (fun hh => hne ((resultIdx_eq_some_iff wf idx e q' r q).mp hh).2)]
  · intro h
    exact absurd (Finset.mem_univ q) h

end Cert.LibRowScatter
-- ==== Proof.Bridge.lean ====
/-
  The reciprocal form and the quotient form of two rounds of mean aggregation followed by a log-softmax agree at every
  entry, when the inputs are real numbers.

  The sum of in-neighbour rows at (r, q) is the base entry plus the sum, over the edges whose destination is r, of
  the source row's entry at column q. With a zero base this is a finite sum of entries, so it is real when the rows
  are. The first layer's two forms agree because multiplying by the reciprocal of a count c ≥ 1 is dividing by it.
  With the hidden rows equal and real, the second layer's two forms agree by linearity: aggregating the rows already
  multiplied by the weights and then scaling equals dividing the aggregate rows and then multiplying by the weights;
  the two forms add their two large terms in opposite order. The scores are then real, and on a row of real scores
  the two groupings of the log-softmax agree.
-/
import proofs.«175573_j29618094473883_2_alg».proof.Proof.Spec
import proofs.«175573_j29618094473883_2_alg».proof.Proof.Algebra
import proofs.«175573_j29618094473883_2_alg».proof.Proof.LibRowScatter

noncomputable section

namespace Cert.Sage

open Idealize.ShloMosaic Idealize.ShloMosaic.ValueIdx Cert.LibRowScatter

/-- The sum of in-neighbour rows read at (r, q): the base entry plus the sum, over the edges whose destination
    number is r, of the source row's entry at column q. -/
theorem nbrSum_apply {N E C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (Z f : Arr N C) (sI dI : IVec ⟨2, ![E, 1]⟩ 32) (r : Fin N) (q : Fin C) :
    nbrSum (rowScatterDims N E C wfs) (rowGatherDims N E C wfg) Z f sI dI (ix2 r q)
      = Z (ix2 r q) + ∑ e : Fin E, if (dI (ix2 e (0 : Fin 1))).toInt = (r.val : ℤ)
          then f (ix2 (rowAt N hN sI e) q) else 0 := by
  unfold nbrSum
  rw [scatterAdd_rows_apply]
  simp only [gather_rows_apply hN]

/-- The sum of in-neighbour rows of a real array, from a zero base, is real. -/
theorem nbrSum_real {N E C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (Z f : Arr N C) (sI dI : IVec ⟨2, ![E, 1]⟩ 32) (hZ : ∀ i, Z i = z32) (hf : ∀ i, IsReal (f i)) (i : _) :
    IsReal (nbrSum (rowScatterDims N E C wfs) (rowGatherDims N E C wfg) Z f sI dI i) := by
  obtain ⟨r, q, rfl⟩ : ∃ (r : Fin N) (q : Fin C), i = ix2 r q := ⟨i 0, i 1, eq_ix2 i⟩
  rw [nbrSum_apply hN, hZ, z32_eq, zero_add]
  exact isReal_sum _ _ fun e _ => isReal_ite (hf _) isReal_zero

theorem outK_eq_outR {N E : ℕ} (hN : 0 < N)
    (wfs : ScatterDims.WF ⟨2, ![N, 128]⟩ ⟨2, ![E, 1]⟩ ⟨2, ![E, 128]⟩ [1] [0] [0] 1)
    (wfg : GatherDims.WF ⟨2, ![N, 128]⟩ ⟨2, ![E, 1]⟩ ⟨2, ![E, 128]⟩ [1] [0] [] [0] [] 1 ![1, 128])
    (wfs' : ScatterDims.WF ⟨2, ![N, 256]⟩ ⟨2, ![E, 1]⟩ ⟨2, ![E, 256]⟩ [1] [0] [0] 1)
    (wfg' : GatherDims.WF ⟨2, ![N, 256]⟩ ⟨2, ![E, 1]⟩ ⟨2, ![E, 256]⟩ [1] [0] [] [0] [] 1 ![1, 256])
    (Z : Arr N 128) (Z' : Arr N 256) (x : Arr N 128) (sI dI : IVec ⟨2, ![E, 1]⟩ 32)
    (W1l W1r : Arr 128 256) (W2l W2r : Arr 256 128)
    (inv : Arr N 1) (b1row : Arr 1 256) (b2row : Arr 1 128) (mc : Vec1 N) (b1 : Vec1 256) (b2 : Vec1 128)
    (hZ : ∀ i, Z i = z32) (hZ' : ∀ i, Z' i = z32)
    (hx : ∀ i, ∃ v : ℝ, x i = (v : EReal)) (hW1l : ∀ i, ∃ v : ℝ, W1l i = (v : EReal)) (hW1r : ∀ i, ∃ v : ℝ, W1r i = (v : EReal))
    (hb1 : ∀ i, ∃ v : ℝ, b1 i = (v : EReal)) (hW2l : ∀ i, ∃ v : ℝ, W2l i = (v : EReal)) (hW2r : ∀ i, ∃ v : ℝ, W2r i = (v : EReal))
    (hb2 : ∀ i, ∃ v : ℝ, b2 i = (v : EReal))
    (hmc : ∀ r : Fin N, (1 : EReal) ≤ mc (ix1 r))
    (hinv : ∀ r : Fin N, inv (ix2 r (0 : Fin 1)) = Ideal.div one32 (mc (ix1 r)))
    (hb1row : ∀ q : Fin 256, b1row (ix2 (0 : Fin 1) q) = b1 (ix1 q))
    (hb2row : ∀ q : Fin 128, b2row (ix2 (0 : Fin 1) q) = b2 (ix1 q)) :
    outK (rowScatterDims N E 128 wfs) (rowGatherDims N E 128 wfg) Z x sI dI W1l W1r W2l W2r inv b1row b2row
      = outR (rowScatterDims N E 128 wfs) (rowGatherDims N E 128 wfg) (rowScatterDims N E 256 wfs') (rowGatherDims N E 256 wfg')
          Z Z' x sI dI W1l W1r W2l W2r mc b1 b2 := by
  -- the hidden rows of the two forms are the same array
  have hhid : hidK (rowScatterDims N E 128 wfs) (rowGatherDims N E 128 wfg) Z x sI dI W1l W1r inv b1row
      = hidR (rowScatterDims N E 128 wfs) (rowGatherDims N E 128 wfg) Z x sI dI W1l W1r mc b1 := by
    funext j
    obtain ⟨r', k, rfl⟩ : ∃ (r' : Fin N) (k : Fin 256), j = ix2 r' k := ⟨j 0, j 1, eq_ix2 j⟩
    unfold hidK hidR
    rw [arr2_apply, arr2_apply]
    exact hiddenK_eq_hiddenR _ _ _ _ _ _ _ _ _ _ (hmc r') (hinv r') (hb1row k)
  -- and that array is real
  have hreal : ∀ j, IsReal (hidR (rowScatterDims N E 128 wfs) (rowGatherDims N E 128 wfg) Z x sI dI W1l W1r mc b1 j) := by
    intro j
    obtain ⟨r', k, rfl⟩ : ∃ (r' : Fin N) (k : Fin 256), j = ix2 r' k := ⟨j 0, j 1, eq_ix2 j⟩
    unfold hidR
    rw [arr2_apply]
    exact hiddenR_real _ _ _ _ _ _ _ _ (nbrSum_real hN wfs wfg Z x sI dI hZ hx) hx hW1l hW1r hb1 (hmc r')
  funext i
  obtain ⟨r, q, rfl⟩ : ∃ (r : Fin N) (q : Fin 128), i = ix2 r q := ⟨i 0, i 1, eq_ix2 i⟩
  unfold outK outR
  rw [arr2_apply, arr2_apply, hhid]
  generalize hidR (rowScatterDims N E 128 wfs) (rowGatherDims N E 128 wfg) Z x sI dI W1l W1r mc b1 = h at hreal ⊢
  -- the scores of the two forms are the same row
  have hlog : (fun j => logitsK
        (nbrSum (rowScatterDims N E 128 wfs) (rowGatherDims N E 128 wfg) Z (arr2 (proj h W2l)) sI dI) h inv W2r b2row r j)
      = fun j => logitsR (nbrSum (rowScatterDims N E 256 wfs') (rowGatherDims N E 256 wfg') Z' h sI dI) h mc W2l W2r b2 r j := by
    funext j
    refine logitsK_eq_logitsR (fun e : Fin E => (dI (ix2 e (0 : Fin 1))).toInt = (r.val : ℤ)) (rowAt N hN sI)
      _ _ h inv mc W2l W2r b2row b2 r j ?_ ?_ hreal hW2l (hmc r) (hinv r) (hb2row j)
    · rw [nbrSum_apply hN, hZ]
      simp only [arr2_apply]
    · intro k
      rw [nbrSum_apply hN, hZ']
  rw [hlog]
  exact lsmK_eq_lsmR _ (fun j => logitsR_real _ h mc W2l W2r b2 r j
    (nbrSum_real hN wfs' wfg' Z' h sI dI hZ' hreal) hreal hW2l hW2r hb2 (hmc r)) q

end Cert.Sage

end
-- ==== Proof.Finite.lean ====
/-
  Every float input of the idealized kernel is a real number.

  The precondition is a conjunction of seven tests, one per float argument: "every entry x of the array satisfies
  |x| < +infinity", where |x| = max x (-x) and +infinity is the value of the single-precision pattern 0x7F800000.
  Among the extended reals, |x| < +infinity excludes exactly the two infinities (|-infinity| = |+infinity| = +infinity),
  so every entry of every float argument is (the image of) a real number.
-/
import proofs.«175573_j29618094473883_2_alg».proof.Pre_finite_inputs
import proofs.«175573_j29618094473883_2_alg».proof.Proof.Gen.Pre_finite_inputs
import Idealize.ShloMosaic.PureOps.Ideal
import Idealize.ShloMosaic.Lib.ValueIdx
import Idealize.ShloMosaic.Lib.ReduceAll

noncomputable section

namespace Cert.Sage.Finite
open Idealize.ShloMosaic Cert.Pre_finite_inputs

/-- The single-precision pattern 0x7F800000 denotes +infinity. -/
theorem inf_pattern : Ideal.ofBits .f32 0x7F800000#32 = (⊤ : EReal) := by
  simp [Ideal.ofBits, Ideal.ieee]

/-- An extended real whose absolute value is below +infinity is a real number. -/
theorem real_of_abs_lt_top (a : EReal) (h : max a (-a) < ⊤) : ∃ v : ℝ, a = (v : EReal) := by
  induction a using EReal.rec with
  | bot => exact absurd h (by simp)
  | coe r => exact ⟨r, rfl⟩
  | top => exact absurd h (by simp)

/-- The scalar shape has a single index. -/
instance subsingleton_scalar_idx : Subsingleton S_.Idx := ⟨fun a b => funext fun d => d.elim0⟩

/-- One argument's test: if "all entries have absolute value below +infinity" came out true, every entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant S_ .f32 0x7F800000#32))) init hr hu ValueIdx.ix0 = 1#1) :
    ∀ i, ∃ v : ℝ, x i = (v : EReal) := by
  intro i
  have hi := Host.reduce_andi_all _ init hr hu ValueIdx.ix0 e i
  have hi' : Ideal.cmp .olt (max (x i) (-(x i))) (Ideal.ofBits .f32 0x7F800000#32) = 1#1 := hi
  rw [inf_pattern] at hi'
  apply real_of_abs_lt_top
  unfold Ideal.cmp at hi'
  by_contra hn
  simp [hn] at hi'

theorem real_of_pre [Cert.Pre_finite_inputs.Facts]
    (a0 : FVec Ideal S50000x128 .f32) (a1 : IVec S2x800000 32) (a2 a3 : FVec Ideal S128x256 .f32)
    (a4 : FVec Ideal S256 .f32) (a5 a6 : FVec Ideal S256x128 .f32) (a7 : FVec Ideal S128 .f32)
    (h : Cert.Pre_finite_inputs.fn (F := Ideal) a0 a1 a2 a3 a4 a5 a6 a7 = fun _ => 1#1) :
    (∀ i, ∃ v : ℝ, a0 i = (v : EReal)) ∧ (∀ i, ∃ v : ℝ, a2 i = (v : EReal)) ∧ (∀ i, ∃ v : ℝ, a3 i = (v : EReal))
    ∧ (∀ i, ∃ v : ℝ, a4 i = (v : EReal)) ∧ (∀ i, ∃ v : ℝ, a5 i = (v : EReal)) ∧ (∀ i, ∃ v : ℝ, a6 i = (v : EReal))
    ∧ (∀ i, ∃ v : ℝ, a7 i = (v : EReal)) := by
  have h0 := congrFun h ValueIdx.ix0
  dsimp only [fn, fn_part1] at h0
  obtain ⟨h6, e7⟩ := IntOp.andi_eq_one.1 h0
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e1, e2⟩ := IntOp.andi_eq_one.1 h2
  exact ⟨real_of_all a0 _ _ _ _ e1, real_of_all a2 _ _ _ _ e2, real_of_all a3 _ _ _ _ e3, real_of_all a4 _ _ _ _ e4,
    real_of_all a5 _ _ _ _ e5, real_of_all a6 _ _ _ _ e6, real_of_all a7 _ _ _ _ e7⟩

end Cert.Sage.Finite
-- ==== Proof.lean ====
/-
  Two rounds of graph mean-aggregation with dense layers and a row-wise log-softmax: the tiled kernel program and the
  plain reference compute the same array over the extended reals when every float input is a real number.

  The kernel program sums in-neighbour rows on the host, and its two kernels, each over 25 blocks of 2000 rows, apply
  the dense layers; it scales a row's sum by the reciprocal of the row's neighbour count (floored at one) and, in the
  second round, aggregates rows already multiplied by the second round's weights. The reference divides by the count
  and multiplies after aggregating, and groups its log-softmax differently. The three facts that join them: a product
  with 1/c is the quotient by c when c ≥ 1; a matrix product distributes over the finite sum of neighbour rows and
  commutes with the real factor 1/c, which needs the rows to be real; and a − (M + L) = (a − M) − L for real a and M.

  The modules: the kernels' arithmetic entry by entry (Payload), their output arrays whole (Arrays0, Arrays1), the
  kernel program's run with its result named (KernelRun) and that result as one function of the arguments (HostRead),
  the reference's run in three stages (RefRun) and its result as the quotient form (RefValue), the algebra (Algebra,
  Bridge) and the reading of the precondition (Finite).
-/
import proofs.«175573_j29618094473883_2_alg».proof.Defs
import proofs.«175573_j29618094473883_2_alg».proof.Proof.Gen.Kernel
import proofs.«175573_j29618094473883_2_alg».proof.Proof.Gen.Kernel.Frame
import proofs.«175573_j29618094473883_2_alg».proof.Proof.Gen.KernelIdeal
import proofs.«175573_j29618094473883_2_alg».proof.Proof.Gen.KernelIdeal.Frame
import proofs.«175573_j29618094473883_2_alg».proof.Proof.Gen.ReferenceIdeal
import proofs.«175573_j29618094473883_2_alg».proof.Proof.Gen.Pre_finite_inputs
import proofs.«175573_j29618094473883_2_alg».proof.Proof.KernelRun
import proofs.«175573_j29618094473883_2_alg».proof.Proof.HostRead
import proofs.«175573_j29618094473883_2_alg».proof.Proof.Glue
import proofs.«175573_j29618094473883_2_alg».proof.Proof.RefRun
import proofs.«175573_j29618094473883_2_alg».proof.Proof.RefValue
import proofs.«175573_j29618094473883_2_alg».proof.Proof.Bridge
import proofs.«175573_j29618094473883_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx
open Cert.Sage Cert.LibRowScatter

/-! ## The two forms agree on real inputs -/

open Cert.KernelIdeal Cert.KernelIdeal.Gen Cert.KernelIdeal.HostValue in
/-- The reference's last stage function of the arguments is the kernel program's reciprocal-form computation of them,
    when every float argument is real-valued. -/
theorem value_eq (x0 : FVec Ideal S50000x128 .f32) (x1 : IVec S2x800000 32) (x2 x3 : FVec Ideal S128x256 .f32)
    (x4 : FVec Ideal S256 .f32) (x5 x6 : FVec Ideal S256x128 .f32) (x7 : FVec Ideal S128 .f32)
    (hpre : Cert.Pre_finite_inputs.fn (F := Ideal) x0 x1 x2 x3 x4 x5 x6 x7 = fun _ => 1#1) :
    Cert.ReferenceIdeal.ReadP.val_main_v59 (F := Ideal) x0 x1 x2 x3 x4 x5 x6 x7
      = outK scatter_S50000x128_S800000x1_S800000x128_1_0_0_1 gather_S50000x128_S800000x1_S800000x128_1_0_n_n_0_1_1128
          zeros x0 (srcIdx x1) (dstIdx x1) x2 x3 x5 x6 (invCol x1)
          (shapeCast S1x256 x4 shapeCasts_S256_S1x256) (shapeCast S1x128 x7 shapeCasts_S128_S1x128) := by
  obtain ⟨h0, h2, h3, h4, h5, h6, h7⟩ := Cert.Sage.Finite.real_of_pre x0 x1 x2 x3 x4 x5 x6 x7 hpre
  rw [Cert.ReferenceIdeal.RefValue.ref_eq]
  -- the reference's index arrays, floored count and zero array are the kernel program's, term for term
  have hs : Cert.ReferenceIdeal.ReadP.val_main_v9 (F := Ideal) x1 = srcIdx x1 := rfl
  have hd : Cert.ReferenceIdeal.ReadP.val_main_v12 (F := Ideal) x1 = dstIdx x1 := rfl
  have hc : Cert.ReferenceIdeal.ReadP.val_main_v19 (F := Ideal) x1 = cnt1 x1 := rfl
  have hz : Cert.ReferenceIdeal.ReadP.val_main_v11 (F := Ideal) = zeros := rfl
  rw [hs, hd, hc, hz]
  exact (outK_eq_outR (N := 50000) (E := 800000) (by decide)
    scatter_S50000x128_S800000x1_S800000x128_1_0_0_1.wf gather_S50000x128_S800000x1_S800000x128_1_0_n_n_0_1_1128.wf
    Cert.ReferenceIdeal.scatter_S50000x256_S800000x1_S800000x256_1_0_0_1.wf Cert.ReferenceIdeal.gather_S50000x256_S800000x1_S800000x256_1_0_n_n_0_1_1256.wf
    zeros (Cert.ReferenceIdeal.ReadP.val_main_v41 (F := Ideal)) x0 (srcIdx x1) (dstIdx x1) x2 x3 x5 x6 (invCol x1)
    (shapeCast S1x256 x4 shapeCasts_S256_S1x256) (shapeCast S1x128 x7 shapeCasts_S128_S1x128) (cnt1 x1) x4 x7
    zeros_apply (fun _ => rfl) h0 h2 h3 h4 h5 h6 h7 (cnt1_ge x1) (invCol_apply x1) (bias1_apply x4) (bias2_apply x7)).symm

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- The ideal pass rewrote nothing. -/
theorem preserves : Cert.preserves_Kernel_KernelIdeal := trivial

/-- From memories agreeing on the arguments both programs run, and end with the same result array: the kernel
    program's at the reciprocal-form computation of its arguments, the reference's at its last stage function of the
    same arguments, which is that computation. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.HostValue.result_eq m ρ c), (h c).2⟩) (Cert.KernelIdeal.RunValue.run_out m ρ), ?_⟩
  refine (θ_run Cert.ReferenceIdeal.defs _ _).mono (fun r h c => ⟨(h c).1.trans ?_, (h c).2⟩)
    (Cert.ReferenceIdeal.RunValue.run (F := Ideal) m' ρ')
  obtain ⟨e0, e1, e2, e3, e4, e5, e6, e7⟩ := hagree c
  rw [e0, e1, e2, e3, e4, e5, e6, e7]
  exact value_eq _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
